-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S768x768 : Shape := ⟨2, ![768, 768]⟩
abbrev S768 : Shape := ⟨1, ![768]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x768 .f32) (main_arg8 : FVec F S768 .f32) (main_v33 : IVec S_ 1) : IVec S_ 1 :=
  let main_v34 : FVec F S768x768 .f32 := Host.absf main_arg7
  let main_cst_12 : FVec F S_ .f32 := constant S_ .f32 0x7F800000#32
  let main_v35 : FVec F S768x768 .f32 := broadcastInDim S768x768 ![] bcast_S_S768x768 main_cst_12
  let main_v36 : IVec S768x768 1 := cmpf .olt main_v34 main_v35
  let main_c_13 : IVec S_ 1 := constantI S_ 1 1#1
  let main_v37 : IVec S_ 1 := (fun x v => Host.reduce IntOp.andi x v reducesTo_S768x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S768 .f32) (main_arg5 : FVec F S768x768 .f32) (main_arg6 : FVec F S768 .f32) (main_arg7 : FVec F S768x768 .f32) (main_arg8 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_v33

def fn {F : FTy → Type} [FloatOps F] (main_arg0 : FVec F S65536x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) (main_arg7 : FVec F S768x768 .f32) (main_arg8 : FVec F S768 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_v13 main_v16
-- ==== Kernel.lean ====
abbrev S65536x768 : Shape := ⟨2, ![65536, 768]⟩
abbrev S768x768 : Shape := ⟨2, ![768, 768]⟩
abbrev S768 : Shape := ⟨1, ![768]⟩
abbrev S1x768 : Shape := ⟨2, ![1, 768]⟩
abbrev S256x768 : Shape := ⟨2, ![256, 768]⟩
abbrev S256x12x64 : Shape := ⟨3, ![256, 12, 64]⟩
abbrev S256x64x12 : Shape := ⟨3, ![256, 64, 12]⟩
abbrev S256x1x64 : Shape := ⟨3, ![256, 1, 64]⟩
abbrev S256x64 : Shape := ⟨2, ![256, 64]⟩
abbrev S256x12 : Shape := ⟨2, ![256, 12]⟩
abbrev S256x1x12 : Shape := ⟨3, ![256, 1, 12]⟩
abbrev S256x12x12 : Shape := ⟨3, ![256, 12, 12]⟩
abbrev S256x12x1 : Shape := ⟨3, ![256, 12, 1]⟩

abbrev nBuf : Space → Nat
  | .hbm => 22
  | .vmem => 12
  | .smem => 0
  | _ => 0

abbrev bufTy : (tb : Table) → Fin (tcTables nBuf tb) → BufTy
  | .hbm, ⟨0, _⟩ => ⟨S65536x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .bf16⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S65536x768, .f32⟩
  | .local _ .vmem, ⟨0, _⟩ => ⟨S256x768, .f32⟩
  | .local _ .vmem, ⟨1, _⟩ => ⟨S256x768, .f32⟩
  | .local _ .vmem, ⟨2, _⟩ => ⟨S768x768, .bf16⟩
  | .local _ .vmem, ⟨3, _⟩ => ⟨S1x768, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S256x768, .f32⟩
  | .local _ .vmem, ⟨11, _⟩ => ⟨S256x768, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S768x768_S768x768_1_0 : S768x768.Transposes [1, 0] S768x768
  bitsLt_bf16_f32 : FTy.bits .bf16 < FTy.bits .f32
  shapeCasts_S768_S1x768 : S768.ShapeCasts S1x768
  inb_S256x768_S256x768_0_0 : ∀ a, (![0, 0] : Fin 2 → Nat) a + S256x768.size a ≤ S256x768.size a
  h_S256x768 : 0 < S256x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S256x12x64 : S256x768.ShapeCasts S256x12x64
  shapeCasts_S256x768_S256x64x12 : S256x768.ShapeCasts S256x64x12
  transposes_S256x64x12_p0_2_1_S256x12x64 : S256x64x12.Transposes [0, 2, 1] S256x12x64
  slices_S256x12x64_o0_0_0_S256x1x64 : S256x12x64.Slices ![0, 0, 0] S256x1x64
  shapeCasts_S256x1x64_S256x64 : S256x1x64.ShapeCasts S256x64
  shapeCasts_S256x64_S256x1x64 : S256x64.ShapeCasts S256x1x64
  broadcasts_S256x1x64_S256x12x64 : S256x1x64.Broadcasts S256x12x64
  reduces_S256x12x64_S256x12 : S256x12x64.Reduces [2] S256x12
  slices_S256x12x64_o0_1_0_S256x1x64 : S256x12x64.Slices ![0, 1, 0] S256x1x64
  slices_S256x12x64_o0_2_0_S256x1x64 : S256x12x64.Slices ![0, 2, 0] S256x1x64
  slices_S256x12x64_o0_3_0_S256x1x64 : S256x12x64.Slices ![0, 3, 0] S256x1x64
  slices_S256x12x64_o0_4_0_S256x1x64 : S256x12x64.Slices ![0, 4, 0] S256x1x64
  slices_S256x12x64_o0_5_0_S256x1x64 : S256x12x64.Slices ![0, 5, 0] S256x1x64
  slices_S256x12x64_o0_6_0_S256x1x64 : S256x12x64.Slices ![0, 6, 0] S256x1x64
  slices_S256x12x64_o0_7_0_S256x1x64 : S256x12x64.Slices ![0, 7, 0] S256x1x64
  slices_S256x12x64_o0_8_0_S256x1x64 : S256x12x64.Slices ![0, 8, 0] S256x1x64
  slices_S256x12x64_o0_9_0_S256x1x64 : S256x12x64.Slices ![0, 9, 0] S256x1x64
  slices_S256x12x64_o0_10_0_S256x1x64 : S256x12x64.Slices ![0, 10, 0] S256x1x64
  slices_S256x12x64_o0_11_0_S256x1x64 : S256x12x64.Slices ![0, 11, 0] S256x1x64
  shapeCasts_S256x12_S256x1x12 : S256x12.ShapeCasts S256x1x12
  concatenates_S256x1x12_S256x1x12_S256x1x12_S256x1x12_S256x1x12_S256x1x12_S256x1x12_S256x1x12_S256x1x12_S256x1x12_S256x1x12_S256x1x12_S256x12x12_d1 : Shape.Concatenates [S256x1x12, S256x1x12, S256x1x12, S256x1x12, S256x1x12, S256x1x12, S256x1x12, S256x1x12, S256x1x12, S256x1x12, S256x1x12, S256x1x12] S256x12x12 1
  reduces_S256x12x12_S256x12 : S256x12x12.Reduces [2] S256x12
  shapeCasts_S256x12_S256x12x1 : S256x12.ShapeCasts S256x12x1
  broadcasts_S256x12x1_S256x12x12 : S256x12x1.Broadcasts S256x12x12
  slices_S256x12x12_o0_0_0_S256x1x12 : S256x12x12.Slices ![0, 0, 0] S256x1x12
  shapeCasts_S256x1x12_S256x12 : S256x1x12.ShapeCasts S256x12
  broadcasts_S256x12x1_S256x12x64 : S256x12x1.Broadcasts S256x12x64
  reduces_S256x12x64_S256x64 : S256x12x64.Reduces [1] S256x64
  slices_S256x12x12_o0_1_0_S256x1x12 : S256x12x12.Slices ![0, 1, 0] S256x1x12
  slices_S256x12x12_o0_2_0_S256x1x12 : S256x12x12.Slices ![0, 2, 0] S256x1x12
  slices_S256x12x12_o0_3_0_S256x1x12 : S256x12x12.Slices ![0, 3, 0] S256x1x12
  slices_S256x12x12_o0_4_0_S256x1x12 : S256x12x12.Slices ![0, 4, 0] S256x1x12
  slices_S256x12x12_o0_5_0_S256x1x12 : S256x12x12.Slices ![0, 5, 0] S256x1x12
  slices_S256x12x12_o0_6_0_S256x1x12 : S256x12x12.Slices ![0, 6, 0] S256x1x12
  slices_S256x12x12_o0_7_0_S256x1x12 : S256x12x12.Slices ![0, 7, 0] S256x1x12
  slices_S256x12x12_o0_8_0_S256x1x12 : S256x12x12.Slices ![0, 8, 0] S256x1x12
  slices_S256x12x12_o0_9_0_S256x1x12 : S256x12x12.Slices ![0, 9, 0] S256x1x12
  slices_S256x12x12_o0_10_0_S256x1x12 : S256x12x12.Slices ![0, 10, 0] S256x1x12
  slices_S256x12x12_o0_11_0_S256x1x12 : S256x12x12.Slices ![0, 11, 0] S256x1x12
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S65536x768.size a
  hwx0_0 : ∀ i : grid0.Coords, EltTy.bits .f32 = 32 ∨ (Rect.block (s := S65536x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x768.size a ≤ S65536x768.size a
  hwx0_9 : ∀ i : grid0.Coords, EltTy.bits .f32 = 32 ∨ (Rect.block (s := S65536x768) S256x768.size (cc0_transform_9 i) (hinb0_9 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_arg0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x768 : Shape := ⟨2, ![65536, 768]⟩
abbrev S768x768 : Shape := ⟨2, ![768, 768]⟩
abbrev S768 : Shape := ⟨1, ![768]⟩
abbrev S1x768 : Shape := ⟨2, ![1, 768]⟩
abbrev S65536x12x64 : Shape := ⟨3, ![65536, 12, 64]⟩
abbrev S65536x64x12 : Shape := ⟨3, ![65536, 64, 12]⟩
abbrev S65536x12x12 : Shape := ⟨3, ![65536, 12, 12]⟩
abbrev S_ : Shape := ⟨0, ![]⟩
abbrev S65536x12 : Shape := ⟨2, ![65536, 12]⟩
abbrev S65536x12x1 : Shape := ⟨3, ![65536, 12, 1]⟩

abbrev nBuf : Space → Nat
  | .hbm => 52
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768, .f32⟩
  | .hbm, ⟨9, _⟩ => ⟨S768x768, .f32⟩
  | .hbm, ⟨10, _⟩ => ⟨S65536x768, .f32⟩
  | .hbm, ⟨11, _⟩ => ⟨S1x768, .f32⟩
  | .hbm, ⟨12, _⟩ => ⟨S65536x768, .f32⟩
  | .hbm, ⟨13, _⟩ => ⟨S65536x768, .f32⟩
  | .hbm, ⟨14, _⟩ => ⟨S768x768, .f32⟩
  | .hbm, ⟨15, _⟩ => ⟨S65536x768, .f32⟩
  | .hbm, ⟨16, _⟩ => ⟨S1x768, .f32⟩
  | .hbm, ⟨17, _⟩ => ⟨S65536x768, .f32⟩
  | .hbm, ⟨18, _⟩ => ⟨S65536x768, .f32⟩
  | .hbm, ⟨19, _⟩ => ⟨S768x768, .f32⟩
  | .hbm, ⟨20, _⟩ => ⟨S65536x768, .f32⟩
  | .hbm, ⟨21, _⟩ => ⟨S1x768, .f32⟩
  | .hbm, ⟨22, _⟩ => ⟨S65536x768, .f32⟩
  | .hbm, ⟨23, _⟩ => ⟨S65536x768, .f32⟩
  | .hbm, ⟨24, _⟩ => ⟨S65536x12x64, .f32⟩
  | .hbm, ⟨25, _⟩ => ⟨S65536x64x12, .f32⟩
  | .hbm, ⟨26, _⟩ => ⟨S65536x12x64, .f32⟩
  | .hbm, ⟨27, _⟩ => ⟨S65536x12x12, .f32⟩
  | .hbm, ⟨28, _⟩ => ⟨S_, .f32⟩
  | .hbm, ⟨29, _⟩ => ⟨S65536x12x12, .f32⟩
  | .hbm, ⟨30, _⟩ => ⟨S65536x12x12, .f32⟩
  | .hbm, ⟨31, _⟩ => ⟨S_, .f32⟩
  | .hbm, ⟨32, _⟩ => ⟨S65536x12, .f32⟩
  | .hbm, ⟨33, _⟩ => ⟨S_, .f32⟩
  | .hbm, ⟨34, _⟩ => ⟨S65536x12, .f32⟩
  | .hbm, ⟨35, _⟩ => ⟨S65536x12, .f32⟩
  | .hbm, ⟨36, _⟩ => ⟨S65536x12x1, .f32⟩
  | .hbm, ⟨37, _⟩ => ⟨S65536x12x12, .f32⟩
  | .hbm, ⟨38, _⟩ => ⟨S65536x12x12, .f32⟩
  | .hbm, ⟨39, _⟩ => ⟨S65536x12x12, .f32⟩
  | .hbm, ⟨40, _⟩ => ⟨S_, .f32⟩
  | .hbm, ⟨41, _⟩ => ⟨S65536x12, .f32⟩
  | .hbm, ⟨42, _⟩ => ⟨S65536x12x1, .f32⟩
  | .hbm, ⟨43, _⟩ => ⟨S65536x12x12, .f32⟩
  | .hbm, ⟨44, _⟩ => ⟨S65536x12x12, .f32⟩
  | .hbm, ⟨45, _⟩ => ⟨S65536x12x64, .f32⟩
  | .hbm, ⟨46, _⟩ => ⟨S65536x768, .f32⟩
  | .hbm, ⟨47, _⟩ => ⟨S768x768, .f32⟩
  | .hbm, ⟨48, _⟩ => ⟨S65536x768, .f32⟩
  | .hbm, ⟨49, _⟩ => ⟨S1x768, .f32⟩
  | .hbm, ⟨50, _⟩ => ⟨S65536x768, .f32⟩
  | .hbm, ⟨51, _⟩ => ⟨S65536x768, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  shapeCasts_S65536x768_S65536x12x64 : S65536x768.ShapeCasts S65536x12x64
  shapeCasts_S65536x768_S65536x64x12 : S65536x768.ShapeCasts S65536x64x12
  bcast_S_S65536x12x12 : S_.BroadcastsInDim S65536x12x12 (![] : Fin 0 → Fin S65536x12x12.rank)
  reducesTo_S65536x12x12_S65536x12_d2 : S65536x12x12.ReducesTo [2] S65536x12
  h_S_ : 0 < S_.numel
  bcast_S_S65536x12 : S_.BroadcastsInDim S65536x12 (![] : Fin 0 → Fin S65536x12.rank)
  bcast_S65536x12_S65536x12x1_0_1 : S65536x12.BroadcastsInDim S65536x12x1 (![0, 1] : Fin 2 → Fin S65536x12x1.rank)
  bcast_S65536x12x1_S65536x12x12_0_1_2 : S65536x12x1.BroadcastsInDim S65536x12x12 (![0, 1, 2] : Fin 3 → Fin S65536x12x12.rank)
  shapeCasts_S65536x12x64_S65536x768 : S65536x12x64.ShapeCasts S65536x768
  dot_S65536x768_S768x768_S65536x768_1_0_0_1_n_n_wf : DotDims.WF S65536x768 S768x768 S65536x768 [1] [0] [0] [1] [] []
  dot_S65536x12x64_S65536x64x12_S65536x12x12_2_1_1_2_0_0_wf : DotDims.WF S65536x12x64 S65536x64x12 S65536x12x12 [2] [1] [1] [2] [0] [0]
  dot_S65536x12x12_S65536x12x64_S65536x12x64_2_1_1_2_0_0_wf : DotDims.WF S65536x12x12 S65536x12x64 S65536x12x64 [2] [1] [1] [2] [0] [0]

variable [Facts₀]

def dot_S65536x768_S768x768_S65536x768_1_0_0_1_n_n : DotDims S65536x768 S768x768 S65536x768 where
  lhsContracting := [1]
  rhsContracting := [0]
  lhsNonContracting := [0]
  rhsNonContracting := [1]
  lhsBatch := []
  rhsBatch := []
  wf := dot_S65536x768_S768x768_S65536x768_1_0_0_1_n_n_wf
def dot_S65536x12x64_S65536x64x12_S65536x12x12_2_1_1_2_0_0 : DotDims S65536x12x64 S65536x64x12 S65536x12x12 where
  lhsContracting := [2]
  rhsContracting := [1]
  lhsNonContracting := [1]
  rhsNonContracting := [2]
  lhsBatch := [0]
  rhsBatch := [0]
  wf := dot_S65536x12x64_S65536x64x12_S65536x12x12_2_1_1_2_0_0_wf
def dot_S65536x12x12_S65536x12x64_S65536x12x64_2_1_1_2_0_0 : DotDims S65536x12x12 S65536x12x64 S65536x12x64 where
  lhsContracting := [2]
  rhsContracting := [1]
  lhsNonContracting := [1]
  rhsNonContracting := [2]
  lhsBatch := [0]
  rhsBatch := [0]
  wf := dot_S65536x12x12_S65536x12x64_S65536x12x64_2_1_1_2_0_0_wf

class Facts : Prop extends Facts₀ where

variable [Facts]
-- ==== Proof.AttnSpec.lean ====
/-
  Per-token multi-head attention on one row, over the extended reals.

  A token is a row `x` of 768 numbers. Three linear layers give its query, key and value rows
  `q = x·Wq + bq`, `k = x·Wk + bk`, `v = x·Wv + bv` (each 768 wide). The query and value rows are cut into 12 heads
  of 64 lanes (column `h·64 + d`), the key row is read as a 64 × 12 matrix (column `d·12 + g`). Head `h` scores
  head `g` by `s(h, g) = (∑ d, q(h·64+d) · k(d·12+g)) · 1/8`; each row of scores goes through a softmax taken
  with the row's maximum subtracted, `a(h, g) = exp(s(h,g) − max s(h,·)) / ∑ g', exp(s(h,g') − max s(h,·))`; the
  context of head `h` is `c(h·64+d) = ∑ g, a(h, g) · v(g·64+d)`; and the result is the linear layer
  `c·Wo + bo`. Every operation is the exact one on the extended reals.
-/
import Idealize.ShloMosaic.PureOps.Ideal
import Idealize.ShloMosaic.Lib.ValueIdx

noncomputable section

namespace Cert.Attn

open Idealize.ShloMosaic Idealize.ShloMosaic.ValueIdx

/-- Column `h·64 + d` of a 768-wide row: lane `d` of head `h` when the row is cut into 12 heads of 64 lanes. -/
def hd (h : Fin 12) (d : Fin 64) : Fin 768 := ⟨h.val * 64 + d.val, by have := h.isLt; have := d.isLt; omega⟩

/-- Column `d·12 + g` of a 768-wide row: entry `(d, g)` when the row is read as a 64 × 12 matrix. -/
def dg (d : Fin 64) (g : Fin 12) : Fin 768 := ⟨d.val * 12 + g.val, by have := g.isLt; have := d.isLt; omega⟩

/-- The head a column of a 768-wide row belongs to, and its lane inside the head. -/
def headOf (c : Fin 768) : Fin 12 := ⟨c.val / 64, by have := c.isLt; omega⟩
def laneOf (c : Fin 768) : Fin 64 := ⟨c.val % 64, by omega⟩

/-- A linear layer on one row: `y j = ∑ k, x k · w k j + b j`. -/
def linear (x : Fin 768 → EReal) (w : Fin 768 → Fin 768 → EReal) (b : Fin 768 → EReal) (j : Fin 768) : EReal :=
  ∑ k : Fin 768, x k * w k j + b j

/-- The sum of products of head `h` of the query row with column `g` of the key row read as 64 × 12. -/
def rawScore (q k : Fin 768 → EReal) (h g : Fin 12) : EReal := ∑ d : Fin 64, q (hd h d) * k (dg d g)

/-- The score: the raw score times one eighth (the number the pattern `0x3E000000` denotes). -/
def score (q k : Fin 768 → EReal) (h g : Fin 12) : EReal := rawScore q k h g * Ideal.ofBits .f32 0x3E000000#32

/-- The greatest of twelve numbers and minus infinity (the number the pattern `0xFF800000` denotes). -/
def rowMax (s : Fin 12 → EReal) : EReal := (Finset.univ : Finset (Fin 12)).fold max (Ideal.ofBits .f32 0xFF800000#32) s

/-- The softmax of twelve numbers, taken with their maximum subtracted. -/
def softmax (s : Fin 12 → EReal) (g : Fin 12) : EReal :=
  Ideal.div (Ideal.exp (s g - rowMax s)) (∑ g' : Fin 12, Ideal.exp (s g' - rowMax s))

/-- The context of head `h`, lane `d`: the weights `a h ·` applied to lane `d` of the twelve heads of the value row. -/
def mix (a : Fin 12 → Fin 12 → EReal) (v : Fin 768 → EReal) (h : Fin 12) (d : Fin 64) : EReal :=
  ∑ g : Fin 12, a h g * v (hd g d)

/-- The attention weights of a token. -/
def weights (x : Fin 768 → EReal) (wq : Fin 768 → Fin 768 → EReal) (bq : Fin 768 → EReal)
    (wk : Fin 768 → Fin 768 → EReal) (bk : Fin 768 → EReal) (h : Fin 12) : Fin 12 → EReal :=
  softmax (score (linear x wq bq) (linear x wk bk) h)

/-- The context row of a token. -/
def context (x : Fin 768 → EReal) (wq : Fin 768 → Fin 768 → EReal) (bq : Fin 768 → EReal)
    (wk : Fin 768 → Fin 768 → EReal) (bk : Fin 768 → EReal) (wv : Fin 768 → Fin 768 → EReal) (bv : Fin 768 → EReal)
    (c : Fin 768) : EReal :=
  mix (weights x wq bq wk bk) (linear x wv bv) (headOf c) (laneOf c)

/-- The attention layer on one token. -/
def attnRow (x : Fin 768 → EReal) (wq : Fin 768 → Fin 768 → EReal) (bq : Fin 768 → EReal)
    (wk : Fin 768 → Fin 768 → EReal) (bk : Fin 768 → EReal) (wv : Fin 768 → Fin 768 → EReal) (bv : Fin 768 → EReal)
    (wo : Fin 768 → Fin 768 → EReal) (bo : Fin 768 → EReal) (j : Fin 768) : EReal :=
  linear (context x wq bq wk bk wv bv) wo bo j

/-- The layer depends on its arguments only through their values. -/
theorem attnRow_congr {x x' : Fin 768 → EReal} {wq wq' wk wk' wv wv' wo wo' : Fin 768 → Fin 768 → EReal}
    {bq bq' bk bk' bv bv' bo bo' : Fin 768 → EReal} {j j' : Fin 768}
    (hx : ∀ k, x k = x' k) (hwq : ∀ k j, wq k j = wq' k j) (hbq : ∀ j, bq j = bq' j)
    (hwk : ∀ k j, wk k j = wk' k j) (hbk : ∀ j, bk j = bk' j) (hwv : ∀ k j, wv k j = wv' k j) (hbv : ∀ j, bv j = bv' j)
    (hwo : ∀ k j, wo k j = wo' k j) (hbo : ∀ j, bo j = bo' j) (hj : j = j') :
    attnRow x wq bq wk bk wv bv wo bo j = attnRow x' wq' bq' wk' bk' wv' bv' wo' bo' j' := by
  obtain rfl : x = x' := funext hx
  obtain rfl : wq = wq' := funext fun k => funext (hwq k)
  obtain rfl : bq = bq' := funext hbq
  obtain rfl : wk = wk' := funext fun k => funext (hwk k)
  obtain rfl : bk = bk' := funext hbk
  obtain rfl : wv = wv' := funext fun k => funext (hwv k)
  obtain rfl : bv = bv' := funext hbv
  obtain rfl : wo = wo' := funext fun k => funext (hwo k)
  obtain rfl : bo = bo' := funext hbo
  subst hj
  rfl

/-- The head and lane of column `h·64 + d` are `h` and `d`. -/
theorem headOf_hd (h : Fin 12) (d : Fin 64) : headOf (hd h d) = h := by
  apply Fin.ext; show (h.val * 64 + d.val) / 64 = h.val; have := d.isLt; omega

theorem laneOf_hd (h : Fin 12) (d : Fin 64) : laneOf (hd h d) = d := by
  apply Fin.ext; show (h.val * 64 + d.val) % 64 = d.val; have := d.isLt; omega

theorem hd_headOf_laneOf (c : Fin 768) : hd (headOf c) (laneOf c) = c := by
  apply Fin.ext; show c.val / 64 * 64 + c.val % 64 = c.val; omega

/-- The layer on a whole array of tokens: row `n` of the result is the layer on row `n` of `x`, with the weight
    matrices read transposed (`w k j = W (j, k)`). -/
def G (x : (⟨2, ![65536, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (Wo : (⟨2, ![768, 768]⟩ : Shape).Idx → EReal) (bo : (⟨1, ![768]⟩ : Shape).Idx → EReal) :
    (⟨2, ![65536, 768]⟩ : Shape).Idx → EReal := fun i =>
  attnRow (fun k => x (ix2 (i 0) k)) (fun k j => Wq (ix2 j k)) (fun j => bq (ix1 j))
    (fun k j => Wk (ix2 j k)) (fun j => bk (ix1 j)) (fun k j => Wv (ix2 j k)) (fun j => bv (ix1 j))
    (fun k j => Wo (ix2 j k)) (fun j => bo (ix1 j)) (i 1)

end Cert.Attn

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibMiddleLayouts.lean ====
/-
  A unit axis in the MIDDLE or at the FRONT, added by a cast and filled by a broadcast, and a trailing unit axis
  dropped — read at an index, generic in the extents: a matrix as [a, 1, b] (a row vector per leading index), that
  array and a [1, b, c] slab broadcast to [a, b, c], and [a, b, 1] cast back to [a, b]. With the trailing-axis forms
  ([a, b] → [a, b, 1] → [a, b, c]) these are the layouts of an outer product of a matrix's rows with themselves.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a, b]` matrix cast to `[a, 1, b]` reads, at `(i, u, j)`, the matrix at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array cast to `[a, b]` reads, at `(i, j)`, the array at `(i, j, 0)`. -/
theorem shapeCast_ab1_ab_apply {a b : ℕ} (x : (⟨3, ![a, b, 1]⟩ : Shape).Idx → α) (h : (⟨3, ![a, b, 1]⟩ : Shape).ShapeCasts ⟨2, ![a, b]⟩)
    (i : Fin a) (j : Fin b) : shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1, c]` array broadcast to `[a, b, c]` reads, at `(i, j, k)`, the array at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` slab broadcast to `[a, b, c]` reads, at `(i, j, k)`, the slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Lib
-- ==== Proof.LibOuterLayouts.lean ====
/-
  Unit axes added by a shape cast and filled by a broadcast, read at an index — the layouts by which an outer product
  u ⊗ v ⊗ w is formed from vectors: a vector as a column [a] → [a, 1] and as a [1, 1, a] slab, a matrix with a
  trailing unit axis [a, b] → [a, b, 1], a column broadcast along rows [a, 1] → [a, b], a trailing unit axis
  broadcast [a, b, 1] → [a, b, c], and a [1, 1, c] slab broadcast to [a, b, c]. Generic in the extents.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector cast to `[1, 1, a]` reads, at `(u, v, i)`, the vector at `i`. -/
theorem shapeCast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add, Nat.mul_one, Nat.add_zero])

/-- An `[a, b]` matrix cast to `[a, b, 1]` reads, at `(i, j, u)`, the matrix at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, 1]` broadcast to `[a, b]` reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` array broadcast to `[a, b, c]` reads, at `(i, j, k)`, the array at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` slab broadcast to `[a, b, c]` reads, at `(i, j, k)`, the slab at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Lib
-- ==== Proof.LibAxisFolds.lean ====
/-
  Folds along one axis, read at an index.

  A minimum or a sum taken along one axis of an `[a, b]` matrix gives one number per row (axis 1) or per column
  (axis 0): at row `p` it is the fold over that row's entries `(p, k)`, at column `c` the fold over that column's
  entries `(k, c)`. The same for a stack `[a, b, c]` of matrices reduced by the host along its last or its middle
  axis: at `(i, j)` the fold runs over `(i, j, k)`, respectively over `(i, k, j)`. A minimum is the fold of `min`
  from the reduction's initial value over the axis's coordinates, in any order, since `min` commutes and associates.
  All are stated for every extent.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Idealize.ShloMosaic.AxisFolds

open Idealize.ShloMosaic Idealize.ShloMosaic.ValueIdx

/-! ## The reduced index with the dropped coordinate put back -/

/-- Row `p` of a matrix with column `k` put back is `(p, k)`. -/
theorem lift_row {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Column `c` of a matrix with row `k` put back is `(k, c)`. -/
theorem lift_col {a b : Nat} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Entry `(i, j)` of a stack reduced along its last axis, with coordinate `k` put back, is `(i, j, k)`. -/
theorem lift_last {a b c : Nat} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Entry `(i, j)` of a stack reduced along its middle axis, with coordinate `k` put back, is `(i, k, j)`. -/
theorem lift_mid {a b c : Nat} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext d; apply Fin.ext
  fin_cases d <;> rfl

/-! ## A matrix's minimum along either axis, and its sum along the rows -/

/-- A minimum along the columns of an `[a, b]` matrix, read at row `p`: the least of that row's entries and the
    initial value. -/
theorem rowMin_apply {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (p : Fin a) :
    multiReduction .minimumf [1] ⟨1, ![a]⟩ x acc h hφ hacc (ix1 p)
      = (Finset.univ : Finset (Fin b)).fold min (Ideal.ofBits φ acc) (fun k => x (ix2 p k)) := by
  rw [multiReduction_minimumf_eq_fold]
  refine (h.fold_filter_drop_single _ _ x (ix1 p)).trans ?_
  have hf : (x ∘ h.lift (ix1 p)) = fun k : Fin b => x (ix2 p k) := funext fun k => congrArg x (lift_row h p k)
  exact congrArg (fun f => Finset.fold min (Ideal.ofBits φ acc) f (Finset.univ : Finset (Fin b))) hf

/-- A minimum along the rows of an `[a, b]` matrix, read at column `c`: the least of that column's entries and the
    initial value. -/
theorem colMin_apply {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.minimumf.neutral φ hφ) (c : Fin b) :
    multiReduction .minimumf [0] ⟨1, ![b]⟩ x acc h hφ hacc (ix1 c)
      = (Finset.univ : Finset (Fin a)).fold min (Ideal.ofBits φ acc) (fun k => x (ix2 k c)) := by
  rw [multiReduction_minimumf_eq_fold]
  refine (h.fold_filter_drop_single _ _ x (ix1 c)).trans ?_
  have hf : (x ∘ h.lift (ix1 c)) = fun k : Fin a => x (ix2 k c) := funext fun k => congrArg x (lift_col h c k)
  exact congrArg (fun f => Finset.fold min (Ideal.ofBits φ acc) f (Finset.univ : Finset (Fin a))) hf

/-- A sum along the rows of an `[a, b]` matrix, read at column `c`, is the sum of that column's entries. -/
theorem colSum_apply {a b : Nat} {φ : FTy} (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ x acc h hφ hacc (ix1 c) = ∑ k : Fin a, x (ix2 k c) := by
  rw [Ideal.multiReduction_add_single]
  exact Finset.sum_congr rfl fun k _ => congrArg x (lift_col h c k)

/-! ## The host's minimum along an axis of a stack -/

/-- The host's reduce with a minimum body along the LAST axis of an `[a, b, c]` stack, at `(i, j)`: the least of
    the entries `(i, j, k)` and the initial value. -/
theorem hostMin_last_apply {a b c : Nat} {φ : FTy} {u : Shape} (x : FVec Ideal ⟨3, ![a, b, c]⟩ φ) (init : FVec Ideal u φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (i : Fin a) (j : Fin b) :
    Host.reduce FloatOps.minimumf x init h' hu (ix2 i j)
      = (Finset.univ : Finset (Fin c)).fold min (init (Shape.Idx.first hu)) (fun k => x (ix3 i j k)) := by
  rw [Host.reduce_eq_fold_single FloatOps.minimumf x init h' h hu]
  have hf : (x ∘ h.lift (ix2 i j)) = fun k : Fin c => x (ix3 i j k) := funext fun k => congrArg x (lift_last h i j k)
  exact congrArg (fun f => Finset.fold min (init (Shape.Idx.first hu)) f (Finset.univ : Finset (Fin c))) hf

/-- The same along the MIDDLE axis, at `(i, j)`: the least of the entries `(i, k, j)` and the initial value. -/
theorem hostMin_mid_apply {a b c : Nat} {φ : FTy} {u : Shape} (x : FVec Ideal ⟨3, ![a, b, c]⟩ φ) (init : FVec Ideal u φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (i : Fin a) (j : Fin c) :
    Host.reduce FloatOps.minimumf x init h' hu (ix2 i j)
      = (Finset.univ : Finset (Fin b)).fold min (init (Shape.Idx.first hu)) (fun k => x (ix3 i k j)) := by
  rw [Host.reduce_eq_fold_single FloatOps.minimumf x init h' h hu]
  have hf : (x ∘ h.lift (ix2 i j)) = fun k : Fin b => x (ix3 i k j) := funext fun k => congrArg x (lift_mid h i j k)
  exact congrArg (fun f => Finset.fold min (init (Shape.Idx.first hu)) f (Finset.univ : Finset (Fin b))) hf

end Idealize.ShloMosaic.AxisFolds

end
-- ==== Proof.LibStackLayouts.lean ====
/-
  A stack `[a, b, c]` of `a` matrices read at an index: a matrix `[a, b·c]` whose rows are cut into `b` runs of `c`,
  one matrix `[:, h, :]` sliced out of the stack and cast to `[a, c]`, and the sum and the maximum along the stack's
  last axis and the sum along its middle axis — at `(i, j)` the fold runs over `(i, j, k)`, respectively over
  `(i, k, j)`. Generic in the extents.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«110411_j86569360818684_2_alg».proof.Proof.LibAxisFolds

noncomputable section

namespace Cert.Lib

open Idealize.ShloMosaic Idealize.ShloMosaic.ValueIdx

variable {α : Type}

/-- An `[a, n]` matrix with `n = b·c`, cast to `[a, b, c]`, reads at `(i, j, k)` the matrix at `(i, j·c + k)`. -/
theorem shapeCast_an_abc_apply {a n b c : ℕ} (x : (⟨2, ![a, n]⟩ : Shape).Idx → α)
    (h : (⟨2, ![a, n]⟩ : Shape).ShapeCasts ⟨3, ![a, b, c]⟩) (hn : n = b * c)
    (i : Fin a) (j : Fin b) (k : Fin c) (l : Fin n) (hl : l.val = j.val * c + k.val) :
    shapeCast ⟨3, ![a, b, c]⟩ x h (ix3 i j k) = x (ix2 i l) :=
  shapeCast_apply x h _ _ (by
    rw [Shape.rowMajor_val_three, Shape.rowMajor_val_two]
    show i.val * n + l.val = (i.val * b + j.val) * c + k.val
    rw [hl, hn, Nat.add_mul, Nat.mul_assoc, Nat.add_assoc])

/-- An `[a, 1, c]` array cast to `[a, c]` reads, at `(i, k)`, the array at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- The slice `[:, h:h+1, :]` of an `[a, b, c]` stack reads, at `(i, u, k)`, the stack at `(i, h, k)`. -/
theorem slice_mid_apply {a b c : ℕ} (x : (⟨3, ![a, b, c]⟩ : Shape).Idx → α) (h : ℕ) (hh : h < b)
    (hs : (⟨3, ![a, b, c]⟩ : Shape).Slices ![0, h, 0] ⟨3, ![a, 1, c]⟩) (i : Fin a) (u : Fin 1) (k : Fin c) :
    extractStridedSlice ⟨3, ![a, 1, c]⟩ ![0, h, 0] x hs (ix3 i u k) = x (ix3 i (⟨h, hh⟩ : Fin b) k) := by
  refine extractStridedSlice_apply _ x hs _ _ fun ax => ?_
  match ax with
  | ⟨0, _⟩ => show i.val = 0 + i.val; omega
  | ⟨1, _⟩ => show h = h + u.val; have := u.isLt; omega
  | ⟨2, _⟩ => show k.val = 0 + k.val; omega

/-- A sum along the last axis of an `[a, b, c]` stack, read at `(i, j)`, is the sum of the entries `(i, j, k)`. -/
theorem sumLast_apply {a b c : ℕ} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ x acc h hφ hacc (ix2 i j) = ∑ k : Fin c, x (ix3 i j k) := by
  rw [Ideal.multiReduction_add_single]
  exact Finset.sum_congr rfl fun k _ => congrArg x (AxisFolds.lift_last h i j k)

/-- A sum along the middle axis of an `[a, b, c]` stack, read at `(i, j)`, is the sum of the entries `(i, k, j)`. -/
theorem sumMid_apply {a b c : ℕ} {φ : FTy} (x : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ x acc h hφ hacc (ix2 i j) = ∑ k : Fin b, x (ix3 i k j) := by
  rw [Ideal.multiReduction_add_single]
  exact Finset.sum_congr rfl fun k _ => congrArg x (AxisFolds.lift_mid h i j k)

/-- The vector unit's maximum along the last axis of an `[a, b, c]` stack, read at `(i, j)`: the greatest of the
    entries `(i, j, k)` and the initial value. -/
theorem maxLast_apply {a b c : ℕ} {φ : FTy} (x : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.maximumf.neutral φ hφ) (i : Fin a) (j : Fin b) :
    multiReduction .maximumf [2] ⟨2, ![a, b]⟩ x acc h hφ hacc (ix2 i j)
      = (Finset.univ : Finset (Fin c)).fold max (Ideal.ofBits φ acc) (fun k => x (ix3 i j k)) := by
  rw [Ideal.multiReduction_maximumf_single]
  have hf : (x ∘ h.lift (ix2 i j)) = fun k : Fin c => x (ix3 i j k) :=
    funext fun k => congrArg x (AxisFolds.lift_last h i j k)
  exact congrArg (fun f => Finset.fold max (Ideal.ofBits φ acc) f (Finset.univ : Finset (Fin c))) hf

/-- The host's reduce with a maximum body along the last axis of an `[a, b, c]` stack, at `(i, j)`: the greatest of
    the entries `(i, j, k)` and the initial value. -/
theorem hostMax_last_apply {a b c : ℕ} {φ : FTy} {u : Shape} (x : FVec Ideal ⟨3, ![a, b, c]⟩ φ) (init : FVec Ideal u φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (i : Fin a) (j : Fin b) :
    Host.reduce FloatOps.maximumf x init h' hu (ix2 i j)
      = (Finset.univ : Finset (Fin c)).fold max (init (Shape.Idx.first hu)) (fun k => x (ix3 i j k)) := by
  rw [Host.reduce_eq_fold_single FloatOps.maximumf x init h' h hu]
  have hf : (x ∘ h.lift (ix2 i j)) = fun k : Fin c => x (ix3 i j k) :=
    funext fun k => congrArg x (AxisFolds.lift_last h i j k)
  exact congrArg (fun f => Finset.fold max (init (Shape.Idx.first hu)) f (Finset.univ : Finset (Fin c))) hf

end Cert.Lib

end
-- ==== Proof.KernelPieces.lean ====
/-
  The kernel body's values at an index, piece by piece.

  The body works on a block of 256 tokens. With `x` the block, it forms the query, key and value rows of every token by
  three matrix products with a bias row, views the query and value rows as 12 heads of 64 lanes and the key rows as
  64 × 12 matrices transposed, scores head against head by a product summed over the 64 lanes — one head of the query
  at a time —, stacks the twelve score rows, scales them by 1/8, takes a softmax along the last axis with the row
  maximum subtracted, mixes the value heads with the weights — again one head at a time —, lays the twelve context
  heads side by side and applies the output layer. Each lemma reads one of these values at an index.
-/
import proofs.«110411_j86569360818684_2_alg».proof.Proof.Gen.KernelIdeal.Skeleton
import proofs.«110411_j86569360818684_2_alg».proof.Proof.AttnSpec
import proofs.«110411_j86569360818684_2_alg».proof.Proof.LibPlainDot
import proofs.«110411_j86569360818684_2_alg».proof.Proof.LibMiddleLayouts
import proofs.«110411_j86569360818684_2_alg».proof.Proof.LibOuterLayouts
import proofs.«110411_j86569360818684_2_alg».proof.Proof.LibStackLayouts
import Idealize.ShloMosaic.Lib.ValueLayout
import Idealize.ShloMosaic.PureOps.Ideal.Laws

noncomputable section

namespace Cert.KernelIdeal.Pieces

open Cert.KernelIdeal Cert.KernelIdeal.Gen Idealize.ShloMosaic Idealize.ShloMosaic.ValueIdx Cert.Lib Cert.Attn

/-! ## The three projections -/

/-- One linear layer of the block: the product of the block with a weight matrix plus the bias row, at `(r, j)`. -/
theorem linear_block (hcw : S768x768.ShapeCasts S768x768) (hcb : S1x768.ShapeCasts S1x768) (hb : S1x768.Broadcasts S256x768)
    (x : FVec Ideal S256x768 .bf16) (w : FVec Ideal S768x768 .bf16) (b : FVec Ideal S1x768 .f32) (r : Fin 256) (j : Fin 768) :
    addf (matmul dot_S256x768_S768x768_S256x768_1_0_0_1_n_n none x (shapeCast S768x768 w hcw) (constant S256x768 .f32 0x00000000#32))
        (broadcastTo S256x768 (shapeCast S1x768 b hcb) hb) (ix2 r j)
      = linear (fun k => x (ix2 r k)) (fun k j => w (ix2 k j)) (fun j => b (ix2 (0 : Fin 1) j)) j := by
  rw [shapeCast_self, shapeCast_self, addf_apply]
  unfold linear
  refine congrArg₂ (· + ·) ?_ ?_
  · exact PlainDot.matmul_zero_apply Facts₀.dot_S256x768_S768x768_S256x768_1_0_0_1_n_n_wf none x w r j
  · exact broadcastTo_1b_ab_apply b hb r j

/-- A 768-wide block cut into 12 heads of 64 lanes, at `(r, h, d)`. -/
theorem heads_apply (hc : S256x768.ShapeCasts S256x12x64) (y : FVec Ideal S256x768 .f32) (r : Fin 256) (h : Fin 12) (d : Fin 64) :
    shapeCast S256x12x64 y hc (ix3 r h d) = y (ix2 r (hd h d)) :=
  shapeCast_an_abc_apply y hc (by norm_num) r h d (hd h d) rfl

/-- A 768-wide block read as 64 × 12 matrices, each transposed, at `(r, g, d)`. -/
theorem keyT_apply (hc : S256x768.ShapeCasts S256x64x12) (ht : S256x64x12.Transposes [0, 2, 1] S256x12x64)
    (y : FVec Ideal S256x768 .f32) (r : Fin 256) (g : Fin 12) (d : Fin 64) :
    transpose S256x12x64 [0, 2, 1] (shapeCast S256x64x12 y hc) ht (ix3 r g d) = y (ix2 r (dg d g)) :=
  (transpose_ix3_021_apply _ ht r g d).trans (shapeCast_an_abc_apply y hc (by norm_num) r d g (dg d g) rfl)

/-- The query stack: head `h`, lane `d` of token `r`'s query row. -/
theorem pay3_apply (v0 : Vec Ideal S256x768 .f32) (v2 : Vec Ideal S768x768 .bf16) (v9 : Vec Ideal S1x768 .f32)
    (r : Fin 256) (h : Fin 12) (d : Fin 64) :
    k0_pay3 v0 v2 v9 (ix3 r h d)
      = linear (fun k => v0 (ix2 r k)) (fun k j => v2 (ix2 k j)) (fun j => v9 (ix2 (0 : Fin 1) j)) (hd h d) := by
  unfold k0_pay3
  exact (heads_apply _ _ r h d).trans (linear_block _ _ _ (k0_pay2 v0) v2 v9 r (hd h d))

/-- The transposed key stack: entry `(d, g)` of token `r`'s key row read as 64 × 12, at `(r, g, d)`. -/
theorem pay4_apply (v0 : Vec Ideal S256x768 .f32) (v4 : Vec Ideal S768x768 .bf16) (v14 : Vec Ideal S1x768 .f32)
    (r : Fin 256) (g : Fin 12) (d : Fin 64) :
    k0_pay4 v0 v4 v14 (ix3 r g d)
      = linear (fun k => v0 (ix2 r k)) (fun k j => v4 (ix2 k j)) (fun j => v14 (ix2 (0 : Fin 1) j)) (dg d g) := by
  unfold k0_pay4
  exact (keyT_apply _ _ _ r g d).trans (linear_block _ _ _ (k0_pay2 v0) v4 v14 r (dg d g))

/-- The value stack: head `g`, lane `d` of token `r`'s value row. -/
theorem pay5_apply (v0 : Vec Ideal S256x768 .f32) (v6 : Vec Ideal S768x768 .bf16) (v19 : Vec Ideal S1x768 .f32)
    (r : Fin 256) (g : Fin 12) (d : Fin 64) :
    k0_pay5 v0 v6 v19 (ix3 r g d)
      = linear (fun k => v0 (ix2 r k)) (fun k j => v6 (ix2 k j)) (fun j => v19 (ix2 (0 : Fin 1) j)) (hd g d) := by
  unfold k0_pay5
  exact (heads_apply _ _ r g d).trans (linear_block _ _ _ (k0_pay2 v0) v6 v19 r (hd g d))

/-! ## One head of the query against the keys -/

/-- Head `h` of a stack `Q`, broadcast over the heads of a stack `KT`, times `KT`: at `(r, g, d)` the product of
    `Q (r, h, d)` and `KT (r, g, d)`. -/
theorem prodRow_apply (h : ℕ) (hh : h < 12) (hs : S256x12x64.Slices ![0, h, 0] S256x1x64)
    (hc1 : S256x1x64.ShapeCasts S256x64) (hc2 : S256x64.ShapeCasts S256x1x64) (hb : S256x1x64.Broadcasts S256x12x64)
    (Q KT : FVec Ideal S256x12x64 .f32) (r : Fin 256) (g : Fin 12) (d : Fin 64) :
    mulf (broadcastTo S256x12x64 (shapeCast S256x1x64 (shapeCast S256x64 (extractStridedSlice S256x1x64 ![0, h, 0] Q hs) hc1) hc2) hb) KT (ix3 r g d)
      = Q (ix3 r (⟨h, hh⟩ : Fin 12) d) * KT (ix3 r g d) := by
  rw [shapeCast_shapeCast, mulf_apply, broadcastTo_a1c_abc_apply, slice_mid_apply _ h hh]

/-- The same summed over the lanes: the raw scores of head `h` against every head `g`. -/
theorem scoreRow_apply (h : ℕ) (hh : h < 12) (hs : S256x12x64.Slices ![0, h, 0] S256x1x64)
    (hc1 : S256x1x64.ShapeCasts S256x64) (hc2 : S256x64.ShapeCasts S256x1x64) (hb : S256x1x64.Broadcasts S256x12x64)
    (hr : S256x12x64.Reduces [2] S256x12) (hφ : FKind.Formats .f32)
    (hacc : (0x00000000#32 : BitVec FTy.f32.bits) = FKind.add.neutral .f32 hφ)
    (Q KT : FVec Ideal S256x12x64 .f32) (r : Fin 256) (g : Fin 12) :
    multiReduction .add [2] S256x12 (mulf (broadcastTo S256x12x64 (shapeCast S256x1x64 (shapeCast S256x64 (extractStridedSlice S256x1x64 ![0, h, 0] Q hs) hc1) hc2) hb) KT) 0x00000000#32 hr hφ hacc (ix2 r g)
      = ∑ d : Fin 64, Q (ix3 r (⟨h, hh⟩ : Fin 12) d) * KT (ix3 r g d) :=
  (sumLast_apply _ _ hr hφ hacc r g).trans (Finset.sum_congr rfl fun d _ => prodRow_apply h hh hs hc1 hc2 hb Q KT r g d)

/-- The same for a head already sliced out. -/
theorem scoreRowOf_apply (hc1 : S256x1x64.ShapeCasts S256x64) (hc2 : S256x64.ShapeCasts S256x1x64) (hb : S256x1x64.Broadcasts S256x12x64)
    (hr : S256x12x64.Reduces [2] S256x12) (hφ : FKind.Formats .f32)
    (hacc : (0x00000000#32 : BitVec FTy.f32.bits) = FKind.add.neutral .f32 hφ)
    (sl : FVec Ideal S256x1x64 .f32) (KT : FVec Ideal S256x12x64 .f32) (r : Fin 256) (g : Fin 12) :
    multiReduction .add [2] S256x12 (mulf (broadcastTo S256x12x64 (shapeCast S256x1x64 (shapeCast S256x64 sl hc1) hc2) hb) KT) 0x00000000#32 hr hφ hacc (ix2 r g)
      = ∑ d : Fin 64, sl (ix3 r (0 : Fin 1) d) * KT (ix3 r g d) := by
  refine (sumLast_apply _ _ hr hφ hacc r g).trans (Finset.sum_congr rfl fun d _ => ?_)
  rw [shapeCast_shapeCast, mulf_apply, broadcastTo_a1c_abc_apply]

theorem pay6_apply (v0 : Vec Ideal S256x768 .f32) (v2 v4 : Vec Ideal S768x768 .bf16) (v9 v14 : Vec Ideal S1x768 .f32)
    (r : Fin 256) (g : Fin 12) :
    k0_pay6 v0 v2 v4 v9 v14 (ix2 r g)
      = ∑ d : Fin 64, k0_pay3 v0 v2 v9 (ix3 r (⟨0, by norm_num⟩ : Fin 12) d) * k0_pay4 v0 v4 v14 (ix3 r g d) := by
  unfold k0_pay6
  exact scoreRow_apply 0 (by norm_num) _ _ _ _ _ _ _ (k0_pay3 v0 v2 v9) (k0_pay4 v0 v4 v14) r g

theorem pay7_apply (v0 : Vec Ideal S256x768 .f32) (v2 v4 : Vec Ideal S768x768 .bf16) (v9 v14 : Vec Ideal S1x768 .f32)
    (r : Fin 256) (g : Fin 12) :
    k0_pay7 v0 v2 v4 v9 v14 (ix2 r g)
      = ∑ d : Fin 64, k0_pay3 v0 v2 v9 (ix3 r (⟨1, by norm_num⟩ : Fin 12) d) * k0_pay4 v0 v4 v14 (ix3 r g d) := by
  unfold k0_pay7
  exact scoreRow_apply 1 (by norm_num) _ _ _ _ _ _ _ (k0_pay3 v0 v2 v9) (k0_pay4 v0 v4 v14) r g

theorem pay8_apply (v0 : Vec Ideal S256x768 .f32) (v2 : Vec Ideal S768x768 .bf16) (v9 : Vec Ideal S1x768 .f32)
    (r : Fin 256) (u : Fin 1) (d : Fin 64) :
    k0_pay8 v0 v2 v9 (ix3 r u d) = k0_pay3 v0 v2 v9 (ix3 r (⟨2, by norm_num⟩ : Fin 12) d) := by
  unfold k0_pay8
  exact slice_mid_apply (k0_pay3 v0 v2 v9) 2 (by norm_num) _ r u d

theorem pay9_apply (v25 : FVec Ideal S256x12x64 .f32) (v39 : FVec Ideal S256x1x64 .f32) (r : Fin 256) (g : Fin 12) :
    k0_pay9 v25 v39 (ix2 r g) = ∑ d : Fin 64, v39 (ix3 r (0 : Fin 1) d) * v25 (ix3 r g d) := by
  unfold k0_pay9
  exact scoreRowOf_apply _ _ _ _ _ _ v39 v25 r g

theorem pay10_apply (v23 v25 : FVec Ideal S256x12x64 .f32) (r : Fin 256) (g : Fin 12) :
    k0_pay10 v23 v25 (ix2 r g) = ∑ d : Fin 64, v23 (ix3 r (⟨3, by norm_num⟩ : Fin 12) d) * v25 (ix3 r g d) := by
  unfold k0_pay10
  exact scoreRow_apply 3 (by norm_num) _ _ _ _ _ _ _ v23 v25 r g

theorem pay11_apply (v23 v25 : FVec Ideal S256x12x64 .f32) (r : Fin 256) (g : Fin 12) :
    k0_pay11 v23 v25 (ix2 r g) = ∑ d : Fin 64, v23 (ix3 r (⟨4, by norm_num⟩ : Fin 12) d) * v25 (ix3 r g d) := by
  unfold k0_pay11
  exact scoreRow_apply 4 (by norm_num) _ _ _ _ _ _ _ v23 v25 r g

theorem pay12_apply (v23 v25 : FVec Ideal S256x12x64 .f32) (r : Fin 256) (g : Fin 12) :
    k0_pay12 v23 v25 (ix2 r g) = ∑ d : Fin 64, v23 (ix3 r (⟨5, by norm_num⟩ : Fin 12) d) * v25 (ix3 r g d) := by
  unfold k0_pay12
  exact scoreRow_apply 5 (by norm_num) _ _ _ _ _ _ _ v23 v25 r g

theorem pay13_apply (v23 v25 : FVec Ideal S256x12x64 .f32) (r : Fin 256) (g : Fin 12) :
    k0_pay13 v23 v25 (ix2 r g) = ∑ d : Fin 64, v23 (ix3 r (⟨6, by norm_num⟩ : Fin 12) d) * v25 (ix3 r g d) := by
  unfold k0_pay13
  exact scoreRow_apply 6 (by norm_num) _ _ _ _ _ _ _ v23 v25 r g

theorem pay14_apply (v23 v25 : FVec Ideal S256x12x64 .f32) (r : Fin 256) (g : Fin 12) :
    k0_pay14 v23 v25 (ix2 r g) = ∑ d : Fin 64, v23 (ix3 r (⟨7, by norm_num⟩ : Fin 12) d) * v25 (ix3 r g d) := by
  unfold k0_pay14
  exact scoreRow_apply 7 (by norm_num) _ _ _ _ _ _ _ v23 v25 r g

theorem pay15_apply (v23 v25 : FVec Ideal S256x12x64 .f32) (r : Fin 256) (g : Fin 12) :
    k0_pay15 v23 v25 (ix2 r g) = ∑ d : Fin 64, v23 (ix3 r (⟨8, by norm_num⟩ : Fin 12) d) * v25 (ix3 r g d) := by
  unfold k0_pay15
  exact scoreRow_apply 8 (by norm_num) _ _ _ _ _ _ _ v23 v25 r g

theorem pay16_apply (v23 v25 : FVec Ideal S256x12x64 .f32) (r : Fin 256) (g : Fin 12) :
    k0_pay16 v23 v25 (ix2 r g) = ∑ d : Fin 64, v23 (ix3 r (⟨9, by norm_num⟩ : Fin 12) d) * v25 (ix3 r g d) := by
  unfold k0_pay16
  exact scoreRow_apply 9 (by norm_num) _ _ _ _ _ _ _ v23 v25 r g

theorem pay17_apply (v23 v25 : FVec Ideal S256x12x64 .f32) (r : Fin 256) (g : Fin 12) (d : Fin 64) :
    k0_pay17 v23 v25 (ix3 r g d) = v23 (ix3 r (⟨10, by norm_num⟩ : Fin 12) d) * v25 (ix3 r g d) := by
  unfold k0_pay17
  exact prodRow_apply 10 (by norm_num) _ _ _ _ v23 v25 r g d

/-! ## The scores stacked and scaled, and their softmax -/

/-- Twelve score rows stacked along the middle axis and scaled: at `(r, h, g)` row `h` at `(r, g)`, times 1/8. -/
theorem scores_block (hc : S256x12.ShapeCasts S256x1x12)
    (s0 s1 s2 s3 s4 s5 s6 s7 s8 s9 s10 s11 : FVec Ideal S256x12 .f32)
    (hcat : Shape.Concatenates [S256x1x12, S256x1x12, S256x1x12, S256x1x12, S256x1x12, S256x1x12, S256x1x12, S256x1x12, S256x1x12, S256x1x12, S256x1x12, S256x1x12] S256x12x12 1)
    (r : Fin 256) (h g : Fin 12) :
    mulf (concatenate S256x12x12 1 [⟨S256x1x12, shapeCast S256x1x12 s0 hc⟩, ⟨S256x1x12, shapeCast S256x1x12 s1 hc⟩, ⟨S256x1x12, shapeCast S256x1x12 s2 hc⟩, ⟨S256x1x12, shapeCast S256x1x12 s3 hc⟩, ⟨S256x1x12, shapeCast S256x1x12 s4 hc⟩, ⟨S256x1x12, shapeCast S256x1x12 s5 hc⟩, ⟨S256x1x12, shapeCast S256x1x12 s6 hc⟩, ⟨S256x1x12, shapeCast S256x1x12 s7 hc⟩, ⟨S256x1x12, shapeCast S256x1x12 s8 hc⟩, ⟨S256x1x12, shapeCast S256x1x12 s9 hc⟩, ⟨S256x1x12, shapeCast S256x1x12 s10 hc⟩, ⟨S256x1x12, shapeCast S256x1x12 s11 hc⟩] hcat)
        (broadcast S256x12x12 (Scalar.ofBits .f32 0x3E000000#32)) (ix3 r h g)
      = (![s0, s1, s2, s3, s4, s5, s6, s7, s8, s9, s10, s11] h) (ix2 r g) * Ideal.ofBits .f32 0x3E000000#32 := by
  rw [mulf_apply, broadcast_apply]
  refine congrArg₂ (· * ·) ?_ rfl
  refine (concatenate_ofFn_unit_apply (t := S256x12x12) (s₁ := S256x1x12) 1
    (fun n : Fin 12 => shapeCast S256x1x12 (![s0, s1, s2, s3, s4, s5, s6, s7, s8, s9, s10, s11] n) hc) hcat rfl rfl (ix3 r h g) h rfl
    (ix3 r (0 : Fin 1) g) (fun b hb => match b, hb with
      | ⟨0, _⟩, _ => rfl
      | ⟨1, _⟩, hb => absurd rfl hb
      | ⟨2, _⟩, _ => rfl)).trans ?_
  exact shapeCast_ab_a1b_apply _ hc r 0 g

/-- A softmax along the last axis of a score stack `S`, taken with the row maximum subtracted: at `(r, h, g)` the
    softmax of the twelve scores `S (r, h, ·)`, at `g`. -/
theorem softmax_block (hr : S256x12x12.Reduces [2] S256x12) (hc : S256x12.ShapeCasts S256x12x1)
    (hb : S256x12x1.Broadcasts S256x12x12)
    (hφm : FKind.Formats .f32) (haccm : (0xFF800000#32 : BitVec FTy.f32.bits) = FKind.maximumf.neutral .f32 hφm)
    (hφa : FKind.Formats .f32) (hacca : (0x00000000#32 : BitVec FTy.f32.bits) = FKind.add.neutral .f32 hφa)
    (S : FVec Ideal S256x12x12 .f32) (r : Fin 256) (h g : Fin 12) :
    divf (exp (subf S (broadcastTo S256x12x12 (shapeCast S256x12x1 (multiReduction .maximumf [2] S256x12 S 0xFF800000#32 hr hφm haccm) hc) hb)))
      (broadcastTo S256x12x12 (shapeCast S256x12x1 (multiReduction .add [2] S256x12
        (exp (subf S (broadcastTo S256x12x12 (shapeCast S256x12x1 (multiReduction .maximumf [2] S256x12 S 0xFF800000#32 hr hφm haccm) hc) hb)))
        0x00000000#32 hr hφa hacca) hc) hb) (ix3 r h g)
      = softmax (fun g' => S (ix3 r h g')) g := by
  have hmax : ∀ g' : Fin 12, broadcastTo S256x12x12 (shapeCast S256x12x1 (multiReduction .maximumf [2] S256x12 S 0xFF800000#32 hr hφm haccm) hc) hb (ix3 r h g')
      = rowMax (fun g'' => S (ix3 r h g'')) := fun g' => by
    rw [broadcastTo_ab1_abc_apply, shapeCast_ab_ab1_apply, maxLast_apply]; rfl
  have hexp : ∀ g' : Fin 12, exp (subf S (broadcastTo S256x12x12 (shapeCast S256x12x1 (multiReduction .maximumf [2] S256x12 S 0xFF800000#32 hr hφm haccm) hc) hb)) (ix3 r h g')
      = Ideal.exp (S (ix3 r h g') - rowMax (fun g'' => S (ix3 r h g''))) := fun g' =>
    congrArg (fun m => Ideal.exp (S (ix3 r h g') - m)) (hmax g')
  rw [divf_apply, hexp, broadcastTo_ab1_abc_apply, shapeCast_ab_ab1_apply, sumLast_apply]
  unfold softmax
  exact congrArg (Ideal.div _) (Finset.sum_congr rfl fun g' _ => hexp g')

/-- The attention weights of token `r`: the softmax of the scaled scores, whatever the twelve raw score rows are
    (`σ h` names row `h`: ten are given, the last two are finished here from a product and from the stacks). -/
theorem pay18_apply (v23 v25 : FVec Ideal S256x12x64 .f32) (v32 : FVec Ideal S256x12 .f32) (v38 : FVec Ideal S256x12 .f32) (v44 : FVec Ideal S256x12 .f32) (v50 : FVec Ideal S256x12 .f32) (v56 : FVec Ideal S256x12 .f32) (v62 : FVec Ideal S256x12 .f32) (v68 : FVec Ideal S256x12 .f32) (v74 : FVec Ideal S256x12 .f32) (v80 : FVec Ideal S256x12 .f32) (v86 : FVec Ideal S256x12 .f32) (v91 : FVec Ideal S256x12x64 .f32) (r : Fin 256) (σ : Fin 12 → Fin 12 → EReal)
    (h0 : ∀ g : Fin 12, v32 (ix2 r g) = σ 0 g)
    (h1 : ∀ g : Fin 12, v38 (ix2 r g) = σ 1 g)
    (h2 : ∀ g : Fin 12, v44 (ix2 r g) = σ 2 g)
    (h3 : ∀ g : Fin 12, v50 (ix2 r g) = σ 3 g)
    (h4 : ∀ g : Fin 12, v56 (ix2 r g) = σ 4 g)
    (h5 : ∀ g : Fin 12, v62 (ix2 r g) = σ 5 g)
    (h6 : ∀ g : Fin 12, v68 (ix2 r g) = σ 6 g)
    (h7 : ∀ g : Fin 12, v74 (ix2 r g) = σ 7 g)
    (h8 : ∀ g : Fin 12, v80 (ix2 r g) = σ 8 g)
    (h9 : ∀ g : Fin 12, v86 (ix2 r g) = σ 9 g)
    (h10 : ∀ g : Fin 12, (∑ d : Fin 64, v91 (ix3 r g d)) = σ 10 g)
    (h11 : ∀ g : Fin 12, (∑ d : Fin 64, v23 (ix3 r (⟨11, by norm_num⟩ : Fin 12) d) * v25 (ix3 r g d)) = σ 11 g)
    (h g : Fin 12) :
    k0_pay18 v23 v25 v32 v38 v44 v50 v56 v62 v68 v74 v80 v86 v91 (ix3 r h g) = softmax (fun g' => σ h g' * Ideal.ofBits .f32 0x3E000000#32) g := by
  unfold k0_pay18
  refine (softmax_block _ _ _ _ _ _ _ _ r h g).trans (congrArg (fun f => softmax f g) (funext fun g' => ?_))
  refine (scores_block _ _ _ _ _ _ _ _ _ _ _ _ _ _ r h g').trans (congrArg (· * Ideal.ofBits .f32 0x3E000000#32) ?_)
  fin_cases h
  · exact h0 g'
  · exact h1 g'
  · exact h2 g'
  · exact h3 g'
  · exact h4 g'
  · exact h5 g'
  · exact h6 g'
  · exact h7 g'
  · exact h8 g'
  · exact h9 g'
  · exact (sumLast_apply v91 _ Facts₀.reduces_S256x12x64_S256x12 (.inl rfl) rfl r g').trans (h10 g')
  · exact (scoreRow_apply 11 (by norm_num) Facts₀.slices_S256x12x64_o0_11_0_S256x1x64 Facts₀.shapeCasts_S256x1x64_S256x64 Facts₀.shapeCasts_S256x64_S256x1x64 Facts₀.broadcasts_S256x1x64_S256x12x64 Facts₀.reduces_S256x12x64_S256x12 (.inl rfl) rfl v23 v25 r g').trans (h11 g')

/-! ## The weights applied to the value heads -/

/-- Row `h` of a weight stack `A` applied to the heads of a value stack `V`: at `(r, d)` the sum over the heads `g`
    of `A (r, h, g) · V (r, g, d)`. -/
theorem mixRow_apply (h : ℕ) (hh : h < 12) (hs : S256x12x12.Slices ![0, h, 0] S256x1x12)
    (hc1 : S256x1x12.ShapeCasts S256x12) (hc2 : S256x12.ShapeCasts S256x12x1) (hb : S256x12x1.Broadcasts S256x12x64)
    (hr : S256x12x64.Reduces [1] S256x64) (hφ : FKind.Formats .f32)
    (hacc : (0x00000000#32 : BitVec FTy.f32.bits) = FKind.add.neutral .f32 hφ)
    (A : FVec Ideal S256x12x12 .f32) (V : FVec Ideal S256x12x64 .f32) (r : Fin 256) (d : Fin 64) :
    multiReduction .add [1] S256x64 (mulf (broadcastTo S256x12x64 (shapeCast S256x12x1 (shapeCast S256x12 (extractStridedSlice S256x1x12 ![0, h, 0] A hs) hc1) hc2) hb) V) 0x00000000#32 hr hφ hacc (ix2 r d)
      = ∑ g : Fin 12, A (ix3 r (⟨h, hh⟩ : Fin 12) g) * V (ix3 r g d) := by
  refine (sumMid_apply _ _ hr hφ hacc r d).trans (Finset.sum_congr rfl fun g _ => ?_)
  rw [mulf_apply, broadcastTo_ab1_abc_apply, shapeCast_ab_ab1_apply, shapeCast_a1c_ac_apply, slice_mid_apply _ h hh]

/-- The same for a weight row already sliced out and laid as a `[256, 12, 1]` column stack. -/
theorem mixRowOf_apply (hb : S256x12x1.Broadcasts S256x12x64)
    (hr : S256x12x64.Reduces [1] S256x64) (hφ : FKind.Formats .f32)
    (hacc : (0x00000000#32 : BitVec FTy.f32.bits) = FKind.add.neutral .f32 hφ)
    (a : FVec Ideal S256x12x1 .f32) (V : FVec Ideal S256x12x64 .f32) (r : Fin 256) (d : Fin 64) :
    multiReduction .add [1] S256x64 (mulf (broadcastTo S256x12x64 a hb) V) 0x00000000#32 hr hφ hacc (ix2 r d)
      = ∑ g : Fin 12, a (ix3 r g (0 : Fin 1)) * V (ix3 r g d) := by
  refine (sumMid_apply _ _ hr hφ hacc r d).trans (Finset.sum_congr rfl fun g _ => ?_)
  rw [mulf_apply, broadcastTo_ab1_abc_apply]

theorem pay19_apply (v23 v25 v26 : FVec Ideal S256x12x64 .f32) (v32 : FVec Ideal S256x12 .f32) (v38 : FVec Ideal S256x12 .f32) (v44 : FVec Ideal S256x12 .f32) (v50 : FVec Ideal S256x12 .f32) (v56 : FVec Ideal S256x12 .f32) (v62 : FVec Ideal S256x12 .f32) (v68 : FVec Ideal S256x12 .f32) (v74 : FVec Ideal S256x12 .f32) (v80 : FVec Ideal S256x12 .f32) (v86 : FVec Ideal S256x12 .f32) (v91 : FVec Ideal S256x12x64 .f32) (r : Fin 256) (d : Fin 64) :
    k0_pay19 v23 v25 v26 v32 v38 v44 v50 v56 v62 v68 v74 v80 v86 v91 (ix2 r d)
      = ∑ g : Fin 12, k0_pay18 v23 v25 v32 v38 v44 v50 v56 v62 v68 v74 v80 v86 v91 (ix3 r (⟨0, by norm_num⟩ : Fin 12) g) * v26 (ix3 r g d) := by
  unfold k0_pay19
  exact mixRow_apply 0 (by norm_num) _ _ _ _ _ _ _ (k0_pay18 v23 v25 v32 v38 v44 v50 v56 v62 v68 v74 v80 v86 v91) v26 r d

theorem pay20_apply (v23 v25 v26 : FVec Ideal S256x12x64 .f32) (v32 : FVec Ideal S256x12 .f32) (v38 : FVec Ideal S256x12 .f32) (v44 : FVec Ideal S256x12 .f32) (v50 : FVec Ideal S256x12 .f32) (v56 : FVec Ideal S256x12 .f32) (v62 : FVec Ideal S256x12 .f32) (v68 : FVec Ideal S256x12 .f32) (v74 : FVec Ideal S256x12 .f32) (v80 : FVec Ideal S256x12 .f32) (v86 : FVec Ideal S256x12 .f32) (v91 : FVec Ideal S256x12x64 .f32) (r : Fin 256) (d : Fin 64) :
    k0_pay20 v23 v25 v26 v32 v38 v44 v50 v56 v62 v68 v74 v80 v86 v91 (ix2 r d)
      = ∑ g : Fin 12, k0_pay18 v23 v25 v32 v38 v44 v50 v56 v62 v68 v74 v80 v86 v91 (ix3 r (⟨1, by norm_num⟩ : Fin 12) g) * v26 (ix3 r g d) := by
  unfold k0_pay20
  exact mixRow_apply 1 (by norm_num) _ _ _ _ _ _ _ (k0_pay18 v23 v25 v32 v38 v44 v50 v56 v62 v68 v74 v80 v86 v91) v26 r d

theorem pay21_apply (v23 v25 v26 : FVec Ideal S256x12x64 .f32) (v32 : FVec Ideal S256x12 .f32) (v38 : FVec Ideal S256x12 .f32) (v44 : FVec Ideal S256x12 .f32) (v50 : FVec Ideal S256x12 .f32) (v56 : FVec Ideal S256x12 .f32) (v62 : FVec Ideal S256x12 .f32) (v68 : FVec Ideal S256x12 .f32) (v74 : FVec Ideal S256x12 .f32) (v80 : FVec Ideal S256x12 .f32) (v86 : FVec Ideal S256x12 .f32) (v91 : FVec Ideal S256x12x64 .f32) (r : Fin 256) (d : Fin 64) :
    k0_pay21 v23 v25 v26 v32 v38 v44 v50 v56 v62 v68 v74 v80 v86 v91 (ix2 r d)
      = ∑ g : Fin 12, k0_pay18 v23 v25 v32 v38 v44 v50 v56 v62 v68 v74 v80 v86 v91 (ix3 r (⟨2, by norm_num⟩ : Fin 12) g) * v26 (ix3 r g d) := by
  unfold k0_pay21
  exact mixRow_apply 2 (by norm_num) _ _ _ _ _ _ _ (k0_pay18 v23 v25 v32 v38 v44 v50 v56 v62 v68 v74 v80 v86 v91) v26 r d

theorem pay22_apply (v23 v25 : FVec Ideal S256x12x64 .f32) (v32 : FVec Ideal S256x12 .f32) (v38 : FVec Ideal S256x12 .f32) (v44 : FVec Ideal S256x12 .f32) (v50 : FVec Ideal S256x12 .f32) (v56 : FVec Ideal S256x12 .f32) (v62 : FVec Ideal S256x12 .f32) (v68 : FVec Ideal S256x12 .f32) (v74 : FVec Ideal S256x12 .f32) (v80 : FVec Ideal S256x12 .f32) (v86 : FVec Ideal S256x12 .f32) (v91 : FVec Ideal S256x12x64 .f32) (r : Fin 256) (g : Fin 12) (u : Fin 1) :
    k0_pay22 v23 v25 v32 v38 v44 v50 v56 v62 v68 v74 v80 v86 v91 (ix3 r g u) = k0_pay18 v23 v25 v32 v38 v44 v50 v56 v62 v68 v74 v80 v86 v91 (ix3 r (⟨3, by norm_num⟩ : Fin 12) g) := by
  unfold k0_pay22
  rw [shapeCast_ab_ab1_apply, shapeCast_a1c_ac_apply]
  exact slice_mid_apply (k0_pay18 v23 v25 v32 v38 v44 v50 v56 v62 v68 v74 v80 v86 v91) 3 (by norm_num) _ r 0 g

theorem pay23_apply (v26 : FVec Ideal S256x12x64 .f32) (v143 : FVec Ideal S256x12x1 .f32) (r : Fin 256) (d : Fin 64) :
    k0_pay23 v26 v143 (ix2 r d) = ∑ g : Fin 12, v143 (ix3 r g (0 : Fin 1)) * v26 (ix3 r g d) := by
  unfold k0_pay23
  exact mixRowOf_apply _ _ _ _ v143 v26 r d

theorem pay24_apply (v26 : FVec Ideal S256x12x64 .f32) (v122 : FVec Ideal S256x12x12 .f32) (r : Fin 256) (d : Fin 64) :
    k0_pay24 v26 v122 (ix2 r d) = ∑ g : Fin 12, v122 (ix3 r (⟨4, by norm_num⟩ : Fin 12) g) * v26 (ix3 r g d) := by
  unfold k0_pay24
  exact mixRow_apply 4 (by norm_num) _ _ _ _ _ _ _ v122 v26 r d

theorem pay25_apply (v26 : FVec Ideal S256x12x64 .f32) (v122 : FVec Ideal S256x12x12 .f32) (r : Fin 256) (d : Fin 64) :
    k0_pay25 v26 v122 (ix2 r d) = ∑ g : Fin 12, v122 (ix3 r (⟨5, by norm_num⟩ : Fin 12) g) * v26 (ix3 r g d) := by
  unfold k0_pay25
  exact mixRow_apply 5 (by norm_num) _ _ _ _ _ _ _ v122 v26 r d

theorem pay26_apply (v26 : FVec Ideal S256x12x64 .f32) (v122 : FVec Ideal S256x12x12 .f32) (r : Fin 256) (d : Fin 64) :
    k0_pay26 v26 v122 (ix2 r d) = ∑ g : Fin 12, v122 (ix3 r (⟨6, by norm_num⟩ : Fin 12) g) * v26 (ix3 r g d) := by
  unfold k0_pay26
  exact mixRow_apply 6 (by norm_num) _ _ _ _ _ _ _ v122 v26 r d

theorem pay27_apply (v26 : FVec Ideal S256x12x64 .f32) (v122 : FVec Ideal S256x12x12 .f32) (r : Fin 256) (d : Fin 64) :
    k0_pay27 v26 v122 (ix2 r d) = ∑ g : Fin 12, v122 (ix3 r (⟨7, by norm_num⟩ : Fin 12) g) * v26 (ix3 r g d) := by
  unfold k0_pay27
  exact mixRow_apply 7 (by norm_num) _ _ _ _ _ _ _ v122 v26 r d

theorem pay28_apply (v26 : FVec Ideal S256x12x64 .f32) (v122 : FVec Ideal S256x12x12 .f32) (r : Fin 256) (d : Fin 64) :
    k0_pay28 v26 v122 (ix2 r d) = ∑ g : Fin 12, v122 (ix3 r (⟨8, by norm_num⟩ : Fin 12) g) * v26 (ix3 r g d) := by
  unfold k0_pay28
  exact mixRow_apply 8 (by norm_num) _ _ _ _ _ _ _ v122 v26 r d

theorem pay29_apply (v26 : FVec Ideal S256x12x64 .f32) (v122 : FVec Ideal S256x12x12 .f32) (r : Fin 256) (d : Fin 64) :
    k0_pay29 v26 v122 (ix2 r d) = ∑ g : Fin 12, v122 (ix3 r (⟨9, by norm_num⟩ : Fin 12) g) * v26 (ix3 r g d) := by
  unfold k0_pay29
  exact mixRow_apply 9 (by norm_num) _ _ _ _ _ _ _ v122 v26 r d

theorem pay30_apply (v26 : FVec Ideal S256x12x64 .f32) (v122 : FVec Ideal S256x12x12 .f32) (r : Fin 256) (d : Fin 64) :
    k0_pay30 v26 v122 (ix2 r d) = ∑ g : Fin 12, v122 (ix3 r (⟨10, by norm_num⟩ : Fin 12) g) * v26 (ix3 r g d) := by
  unfold k0_pay30
  exact mixRow_apply 10 (by norm_num) _ _ _ _ _ _ _ v122 v26 r d

theorem pay31_apply (v26 : FVec Ideal S256x12x64 .f32) (v122 : FVec Ideal S256x12x12 .f32) (r : Fin 256) (d : Fin 64) :
    k0_pay31 v26 v122 (ix2 r d) = ∑ g : Fin 12, v122 (ix3 r (⟨11, by norm_num⟩ : Fin 12) g) * v26 (ix3 r g d) := by
  unfold k0_pay31
  exact mixRow_apply 11 (by norm_num) _ _ _ _ _ _ _ v122 v26 r d

/-! ## The output layer -/

/-- The twelve context heads laid side by side and put through the output layer: at `(r, j)` the linear layer on
    the row whose column `c` is head `c / 64` at lane `c % 64`. -/
theorem pay1_apply (v128 : FVec Ideal S256x64 .f32) (v134 : FVec Ideal S256x64 .f32) (v140 : FVec Ideal S256x64 .f32) (v146 : FVec Ideal S256x64 .f32) (v152 : FVec Ideal S256x64 .f32) (v158 : FVec Ideal S256x64 .f32) (v164 : FVec Ideal S256x64 .f32) (v170 : FVec Ideal S256x64 .f32) (v176 : FVec Ideal S256x64 .f32) (v182 : FVec Ideal S256x64 .f32) (v188 : FVec Ideal S256x64 .f32) (v194 : FVec Ideal S256x64 .f32)
    (v197 : Vec Ideal S768x768 .bf16) (v200 : Vec Ideal S1x768 .f32) (r : Fin 256) (j : Fin 768) :
    k0_pay1 v128 v134 v140 v146 v152 v158 v164 v170 v176 v182 v188 v194 v197 v200 (ix2 r j)
      = linear (fun c => (![v128, v134, v140, v146, v152, v158, v164, v170, v176, v182, v188, v194] (headOf c)) (ix2 r (laneOf c)))
          (fun k j => v197 (ix2 k j)) (fun j => v200 (ix2 (0 : Fin 1) j)) j := by
  unfold k0_pay1
  refine (linear_block _ _ _ _ v197 v200 r j).trans (congrArg (fun f => linear f _ _ j) (funext fun c => ?_))
  exact concatenate_ofFn_apply (t := S256x768) (s₁ := S256x64) 1 (fun n : Fin 12 => ![v128, v134, v140, v146, v152, v158, v164, v170, v176, v182, v188, v194] n)
    Facts₀.concatenates_S256x64_S256x64_S256x64_S256x64_S256x64_S256x64_S256x64_S256x64_S256x64_S256x64_S256x64_S256x64_S256x768_d1 rfl 64 rfl (ix2 r c) (headOf c) rfl
    (ix2 r (laneOf c)) rfl (fun b hb => match b, hb with
      | ⟨0, _⟩, _ => rfl
      | ⟨1, _⟩, hb => absurd rfl hb)

end Cert.KernelIdeal.Pieces

end
-- ==== Proof.KernelBlock.lean ====
/-
  The kernel body on one block, at an index: row `r` of what the body stores is the attention layer on token `r` of the
  block. The twelve score rows, the weights, and the twelve context heads are each a case of one statement about
  head `h`; this module puts the cases together.
-/
import proofs.«110411_j86569360818684_2_alg».proof.Proof.Gen.KernelIdeal.Frame
import proofs.«110411_j86569360818684_2_alg».proof.Proof.AttnSpec
import proofs.«110411_j86569360818684_2_alg».proof.Proof.KernelPieces
import Idealize.ShloMosaic.Lib.Pipeline.Value

noncomputable section

namespace Cert.KernelIdeal.Block

open Cert.KernelIdeal Cert.KernelIdeal.Gen Cert.KernelIdeal.Pieces Idealize.ShloMosaic Idealize.ShloMosaic.ValueIdx Cert.Attn

/-- The twelve context heads of token `r`, from the query, key and value stacks, ten score rows and the lane-wise
    product of the eleventh, whenever these hold the token's rows `q`, `k`, `v` and their raw scores: head `h`, lane
    `d` is the weights of head `h` applied to lane `d` of the value heads. -/
theorem heads_all (Q KT Vv : FVec Ideal S256x12x64 .f32) (s0 s1 s2 s3 s4 s5 s6 s7 s8 s9 : FVec Ideal S256x12 .f32)
    (p10 : FVec Ideal S256x12x64 .f32) (r : Fin 256) (q k v : Fin 768 → EReal)
    (hQ : ∀ (h : Fin 12) (d : Fin 64), Q (ix3 r h d) = q (hd h d))
    (hK : ∀ (g : Fin 12) (d : Fin 64), KT (ix3 r g d) = k (dg d g))
    (hV : ∀ (g : Fin 12) (d : Fin 64), Vv (ix3 r g d) = v (hd g d))
    (hs0 : ∀ g : Fin 12, s0 (ix2 r g) = rawScore q k 0 g)
    (hs1 : ∀ g : Fin 12, s1 (ix2 r g) = rawScore q k 1 g)
    (hs2 : ∀ g : Fin 12, s2 (ix2 r g) = rawScore q k 2 g)
    (hs3 : ∀ g : Fin 12, s3 (ix2 r g) = rawScore q k 3 g)
    (hs4 : ∀ g : Fin 12, s4 (ix2 r g) = rawScore q k 4 g)
    (hs5 : ∀ g : Fin 12, s5 (ix2 r g) = rawScore q k 5 g)
    (hs6 : ∀ g : Fin 12, s6 (ix2 r g) = rawScore q k 6 g)
    (hs7 : ∀ g : Fin 12, s7 (ix2 r g) = rawScore q k 7 g)
    (hs8 : ∀ g : Fin 12, s8 (ix2 r g) = rawScore q k 8 g)
    (hs9 : ∀ g : Fin 12, s9 (ix2 r g) = rawScore q k 9 g)
    (hp : ∀ (g : Fin 12) (d : Fin 64), p10 (ix3 r g d) = q (hd 10 d) * k (dg d g))
    (h : Fin 12) (d : Fin 64) :
    (![k0_pay19 Q KT Vv s0 s1 s2 s3 s4 s5 s6 s7 s8 s9 p10, k0_pay20 Q KT Vv s0 s1 s2 s3 s4 s5 s6 s7 s8 s9 p10, k0_pay21 Q KT Vv s0 s1 s2 s3 s4 s5 s6 s7 s8 s9 p10, k0_pay23 Vv (k0_pay22 Q KT s0 s1 s2 s3 s4 s5 s6 s7 s8 s9 p10), k0_pay24 Vv (k0_pay18 Q KT s0 s1 s2 s3 s4 s5 s6 s7 s8 s9 p10), k0_pay25 Vv (k0_pay18 Q KT s0 s1 s2 s3 s4 s5 s6 s7 s8 s9 p10), k0_pay26 Vv (k0_pay18 Q KT s0 s1 s2 s3 s4 s5 s6 s7 s8 s9 p10), k0_pay27 Vv (k0_pay18 Q KT s0 s1 s2 s3 s4 s5 s6 s7 s8 s9 p10), k0_pay28 Vv (k0_pay18 Q KT s0 s1 s2 s3 s4 s5 s6 s7 s8 s9 p10), k0_pay29 Vv (k0_pay18 Q KT s0 s1 s2 s3 s4 s5 s6 s7 s8 s9 p10), k0_pay30 Vv (k0_pay18 Q KT s0 s1 s2 s3 s4 s5 s6 s7 s8 s9 p10), k0_pay31 Vv (k0_pay18 Q KT s0 s1 s2 s3 s4 s5 s6 s7 s8 s9 p10)] h) (ix2 r d)
      = mix (fun h => softmax (score q k h)) v h d := by
  have hA : ∀ h g : Fin 12, k0_pay18 Q KT s0 s1 s2 s3 s4 s5 s6 s7 s8 s9 p10 (ix3 r h g) = softmax (score q k h) g := fun h g =>
    pay18_apply Q KT s0 s1 s2 s3 s4 s5 s6 s7 s8 s9 p10 r (rawScore q k) hs0 hs1 hs2 hs3 hs4 hs5 hs6 hs7 hs8 hs9
      (fun g => Finset.sum_congr rfl fun d _ => hp g d)
      (fun g => Finset.sum_congr rfl fun d _ => by rw [hQ, hK]; rfl) h g
  unfold mix
  fin_cases h
  · exact (pay19_apply Q KT Vv s0 s1 s2 s3 s4 s5 s6 s7 s8 s9 p10 r d).trans (Finset.sum_congr rfl fun g _ => by rw [hA, hV])
  · exact (pay20_apply Q KT Vv s0 s1 s2 s3 s4 s5 s6 s7 s8 s9 p10 r d).trans (Finset.sum_congr rfl fun g _ => by rw [hA, hV])
  · exact (pay21_apply Q KT Vv s0 s1 s2 s3 s4 s5 s6 s7 s8 s9 p10 r d).trans (Finset.sum_congr rfl fun g _ => by rw [hA, hV])
  · exact (pay23_apply Vv _ r d).trans (Finset.sum_congr rfl fun g _ => by rw [pay22_apply, hA, hV])
  · exact (pay24_apply Vv _ r d).trans (Finset.sum_congr rfl fun g _ => by rw [hA, hV])
  · exact (pay25_apply Vv _ r d).trans (Finset.sum_congr rfl fun g _ => by rw [hA, hV])
  · exact (pay26_apply Vv _ r d).trans (Finset.sum_congr rfl fun g _ => by rw [hA, hV])
  · exact (pay27_apply Vv _ r d).trans (Finset.sum_congr rfl fun g _ => by rw [hA, hV])
  · exact (pay28_apply Vv _ r d).trans (Finset.sum_congr rfl fun g _ => by rw [hA, hV])
  · exact (pay29_apply Vv _ r d).trans (Finset.sum_congr rfl fun g _ => by rw [hA, hV])
  · exact (pay30_apply Vv _ r d).trans (Finset.sum_congr rfl fun g _ => by rw [hA, hV])
  · exact (pay31_apply Vv _ r d).trans (Finset.sum_congr rfl fun g _ => by rw [hA, hV])

theorem hz : (![0, 0] : Fin 2 → Nat) = fun _ => 0 := funext fun a => by fin_cases a <;> rfl

/-- What the body leaves in the output block, at `(r, j)`: the attention layer on row `r` of the block of tokens, with
    the weight blocks read as they lie (`w k j` at `(k, j)`) and the bias rows at `(0, j)`. -/
theorem block_apply (x0 : Vec Ideal S256x768 .f32) (x1 : Vec Ideal S768x768 .bf16) (x2 : Vec Ideal S1x768 .f32)
    (x3 : Vec Ideal S768x768 .bf16) (x4 : Vec Ideal S1x768 .f32) (x5 : Vec Ideal S768x768 .bf16) (x6 : Vec Ideal S1x768 .f32)
    (x7 : Vec Ideal S768x768 .bf16) (x8 : Vec Ideal S1x768 .f32) (r : Fin 256) (j : Fin 768) :
    out0_9 x0 x1 x2 x3 x4 x5 x6 x7 x8 (ix2 r j)
      = attnRow (fun k => x0 (ix2 r k)) (fun k j => x1 (ix2 k j)) (fun j => x2 (ix2 (0 : Fin 1) j))
          (fun k j => x3 (ix2 k j)) (fun j => x4 (ix2 (0 : Fin 1) j)) (fun k j => x5 (ix2 k j)) (fun j => x6 (ix2 (0 : Fin 1) j))
          (fun k j => x7 (ix2 k j)) (fun j => x8 (ix2 (0 : Fin 1) j)) j := by
  unfold out0_9
  rw [View.canon_unit_zero hz]
  simp only [View.ld_unit_zero (S := S256x768) hz, View.ld_unit_zero (S := S768x768) hz, View.ld_unit_zero (S := S1x768) hz]
  refine (pay1_apply _ _ _ _ _ _ _ _ _ _ _ _ _ _ r j).trans ?_
  unfold attnRow
  refine congrArg (fun f => linear f _ _ j) (funext fun c => ?_)
  have e34 : ∀ (h g : Fin 12) (d : Fin 64), k0_pay3 x0 x1 x2 (ix3 r h d) * k0_pay4 x0 x3 x4 (ix3 r g d)
      = linear (fun k => x0 (ix2 r k)) (fun k j => x1 (ix2 k j)) (fun j => x2 (ix2 (0 : Fin 1) j)) (hd h d)
        * linear (fun k => x0 (ix2 r k)) (fun k j => x3 (ix2 k j)) (fun j => x4 (ix2 (0 : Fin 1) j)) (dg d g) :=
    fun h g d => by rw [pay3_apply, pay4_apply]
  exact heads_all _ _ _ _ _ _ _ _ _ _ _ _ _ _ r
    (linear (fun k => x0 (ix2 r k)) (fun k j => x1 (ix2 k j)) (fun j => x2 (ix2 (0 : Fin 1) j)))
    (linear (fun k => x0 (ix2 r k)) (fun k j => x3 (ix2 k j)) (fun j => x4 (ix2 (0 : Fin 1) j)))
    (linear (fun k => x0 (ix2 r k)) (fun k j => x5 (ix2 k j)) (fun j => x6 (ix2 (0 : Fin 1) j)))
    (fun h d => pay3_apply x0 x1 x2 r h d) (fun g d => pay4_apply x0 x3 x4 r g d) (fun g d => pay5_apply x0 x5 x6 r g d)
    (fun g => (pay6_apply x0 x1 x3 x2 x4 r g).trans (Finset.sum_congr rfl fun d _ => e34 _ g d))
    (fun g => (pay7_apply x0 x1 x3 x2 x4 r g).trans (Finset.sum_congr rfl fun d _ => e34 _ g d))
    (fun g => (pay9_apply _ _ r g).trans (Finset.sum_congr rfl fun d _ => by rw [pay8_apply]; exact e34 _ g d))
    (fun g => (pay10_apply _ _ r g).trans (Finset.sum_congr rfl fun d _ => e34 _ g d))
    (fun g => (pay11_apply _ _ r g).trans (Finset.sum_congr rfl fun d _ => e34 _ g d))
    (fun g => (pay12_apply _ _ r g).trans (Finset.sum_congr rfl fun d _ => e34 _ g d))
    (fun g => (pay13_apply _ _ r g).trans (Finset.sum_congr rfl fun d _ => e34 _ g d))
    (fun g => (pay14_apply _ _ r g).trans (Finset.sum_congr rfl fun d _ => e34 _ g d))
    (fun g => (pay15_apply _ _ r g).trans (Finset.sum_congr rfl fun d _ => e34 _ g d))
    (fun g => (pay16_apply _ _ r g).trans (Finset.sum_congr rfl fun d _ => e34 _ g d))
    (fun g d => (pay17_apply _ _ r g d).trans (e34 _ g d))
    (headOf c) (laneOf c)

end Cert.KernelIdeal.Block

end
-- ==== Proof.KernelValue.lean ====
/-
  The kernel's result array, as one function of the argument arrays.

  Grid point `t` stages rows `256·t … 256·t + 255` of the tokens, the four weight matrices whole — each transposed by
  the host before the launch — and the four bias vectors whole, each laid as one row by the host. So what point `t`
  writes back is rows `256·t … 256·t + 255` of the attention layer on the whole token array; the 256 points' blocks
  cover the result array, which therefore ends holding the layer on every token.
-/
import proofs.«110411_j86569360818684_2_alg».proof.Proof.Gen.KernelIdeal.Frame
import proofs.«110411_j86569360818684_2_alg».proof.Proof.Gen.KernelIdeal.Value
import proofs.«110411_j86569360818684_2_alg».proof.Proof.AttnSpec
import proofs.«110411_j86569360818684_2_alg».proof.Proof.KernelBlock
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx Cert.Attn

variable (m : (ℓ : Loc nD τ sig) → Buf (Elt Ideal) ℓ) (ρ : Dev nD → PrngReg)

/-! ## The arrays the host prepares -/

/-- The array window 1 stages: argument 1 transposed (the change of format is the identity on the extended reals). -/
theorem V_main_v1 (c : Dev nD) : (V m c main_v1 : S768x768.Idx → EReal)
    = transpose S768x768 [1, 0] (m ((c : Thread nD τ).loc main_arg1)) Facts₀.transposes_S768x768_S768x768_1_0 := by
  dsimp only [Gen.V, Gen.hostOps0]; after_results; rfl

/-- The array window 3 stages: argument 3 transposed (the change of format is the identity on the extended reals). -/
theorem V_main_v3 (c : Dev nD) : (V m c main_v3 : S768x768.Idx → EReal)
    = transpose S768x768 [1, 0] (m ((c : Thread nD τ).loc main_arg3)) Facts₀.transposes_S768x768_S768x768_1_0 := by
  dsimp only [Gen.V, Gen.hostOps0]; after_results; rfl

/-- The array window 5 stages: argument 5 transposed (the change of format is the identity on the extended reals). -/
theorem V_main_v5 (c : Dev nD) : (V m c main_v5 : S768x768.Idx → EReal)
    = transpose S768x768 [1, 0] (m ((c : Thread nD τ).loc main_arg5)) Facts₀.transposes_S768x768_S768x768_1_0 := by
  dsimp only [Gen.V, Gen.hostOps0]; after_results; rfl

/-- The array window 7 stages: argument 7 transposed (the change of format is the identity on the extended reals). -/
theorem V_main_v7 (c : Dev nD) : (V m c main_v7 : S768x768.Idx → EReal)
    = transpose S768x768 [1, 0] (m ((c : Thread nD τ).loc main_arg7)) Facts₀.transposes_S768x768_S768x768_1_0 := by
  dsimp only [Gen.V, Gen.hostOps0]; after_results; rfl

/-- The array window 2 stages: argument 2 laid as one row. -/
theorem V_main_v8 (c : Dev nD) : (V m c main_v8 : S1x768.Idx → EReal)
    = shapeCast S1x768 (m ((c : Thread nD τ).loc main_arg2)) Facts₀.shapeCasts_S768_S1x768 := by
  dsimp only [Gen.V, Gen.hostOps0]; after_results; rfl

/-- The array window 4 stages: argument 4 laid as one row. -/
theorem V_main_v9 (c : Dev nD) : (V m c main_v9 : S1x768.Idx → EReal)
    = shapeCast S1x768 (m ((c : Thread nD τ).loc main_arg4)) Facts₀.shapeCasts_S768_S1x768 := by
  dsimp only [Gen.V, Gen.hostOps0]; after_results; rfl

/-- The array window 6 stages: argument 6 laid as one row. -/
theorem V_main_v10 (c : Dev nD) : (V m c main_v10 : S1x768.Idx → EReal)
    = shapeCast S1x768 (m ((c : Thread nD τ).loc main_arg6)) Facts₀.shapeCasts_S768_S1x768 := by
  dsimp only [Gen.V, Gen.hostOps0]; after_results; rfl

/-- The array window 8 stages: argument 8 laid as one row. -/
theorem V_main_v11 (c : Dev nD) : (V m c main_v11 : S1x768.Idx → EReal)
    = shapeCast S1x768 (m ((c : Thread nD τ).loc main_arg8)) Facts₀.shapeCasts_S768_S1x768 := by
  dsimp only [Gen.V, Gen.hostOps0]; after_results; rfl

/-! ## The blocks the points stage -/

/-- The printed index maps over the grid: the token window and the result window move one block down per point, every
    other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem N256 : cfg0.N = 256 := N_0

/-- Point `t`'s token block: row `r` is token `256·t + r`. -/
theorem iblk0_apply (c : Dev nD) (t : Fin cfg0.N) (r : Fin 256) (k : Fin 768) (n : Fin 65536)
    (hn : n.val = t.val * 256 + r.val) :
    (iblk m c 0 t : Vec Ideal S256x768 .f32) (ix2 r k) = ((m ((c : Thread nD τ).loc main_arg0)) : S65536x768.Idx → EReal) (ix2 n k) := by
  obtain ⟨e00, e01, e10, e11, e20, e21, e30, e31, e40, e41, e50, e51, e60, e61, e70, e71, e80, e81, e90, e91⟩ := idx_facts t
  unfold iblk
  rw [View.read_apply]
  show V m c main_arg0 _ = _
  rw [V_main_arg0]
  congr 1
  funext a
  apply Fin.ext
  match a with
  | ⟨0, _⟩ => show win0_0.index t 0 * 256 + 1 * r.val = n.val; rw [e00, hn]; omega
  | ⟨1, _⟩ => show win0_0.index t 1 * 768 + 1 * k.val = k.val; rw [e01]; omega

/-- Point `t`'s block of window 1: the whole of argument 1 transposed. -/
theorem iblk1_apply (c : Dev nD) (t : Fin cfg0.N) (k j : Fin 768) :
    (iblk m c 1 t : Vec Ideal S768x768 .bf16) (ix2 k j) = ((m ((c : Thread nD τ).loc main_arg1)) : S768x768.Idx → EReal) (ix2 j k) := by
  obtain ⟨e00, e01, e10, e11, e20, e21, e30, e31, e40, e41, e50, e51, e60, e61, e70, e71, e80, e81, e90, e91⟩ := idx_facts t
  unfold iblk
  rw [View.read_apply]
  show V m c main_v1 _ = _
  rw [V_main_v1]
  refine (congrArg _ (?_ : _ = ix2 k j)).trans (transpose_ix2_apply _ _ k j)
  funext a
  apply Fin.ext
  match a with
  | ⟨0, _⟩ => show win0_1.index t 0 * 768 + 1 * k.val = k.val; rw [e10]; omega
  | ⟨1, _⟩ => show win0_1.index t 1 * 768 + 1 * j.val = j.val; rw [e11]; omega

/-- Point `t`'s block of window 3: the whole of argument 3 transposed. -/
theorem iblk3_apply (c : Dev nD) (t : Fin cfg0.N) (k j : Fin 768) :
    (iblk m c 3 t : Vec Ideal S768x768 .bf16) (ix2 k j) = ((m ((c : Thread nD τ).loc main_arg3)) : S768x768.Idx → EReal) (ix2 j k) := by
  obtain ⟨e00, e01, e10, e11, e20, e21, e30, e31, e40, e41, e50, e51, e60, e61, e70, e71, e80, e81, e90, e91⟩ := idx_facts t
  unfold iblk
  rw [View.read_apply]
  show V m c main_v3 _ = _
  rw [V_main_v3]
  refine (congrArg _ (?_ : _ = ix2 k j)).trans (transpose_ix2_apply _ _ k j)
  funext a
  apply Fin.ext
  match a with
  | ⟨0, _⟩ => show win0_3.index t 0 * 768 + 1 * k.val = k.val; rw [e30]; omega
  | ⟨1, _⟩ => show win0_3.index t 1 * 768 + 1 * j.val = j.val; rw [e31]; omega

/-- Point `t`'s block of window 5: the whole of argument 5 transposed. -/
theorem iblk5_apply (c : Dev nD) (t : Fin cfg0.N) (k j : Fin 768) :
    (iblk m c 5 t : Vec Ideal S768x768 .bf16) (ix2 k j) = ((m ((c : Thread nD τ).loc main_arg5)) : S768x768.Idx → EReal) (ix2 j k) := by
  obtain ⟨e00, e01, e10, e11, e20, e21, e30, e31, e40, e41, e50, e51, e60, e61, e70, e71, e80, e81, e90, e91⟩ := idx_facts t
  unfold iblk
  rw [View.read_apply]
  show V m c main_v5 _ = _
  rw [V_main_v5]
  refine (congrArg _ (?_ : _ = ix2 k j)).trans (transpose_ix2_apply _ _ k j)
  funext a
  apply Fin.ext
  match a with
  | ⟨0, _⟩ => show win0_5.index t 0 * 768 + 1 * k.val = k.val; rw [e50]; omega
  | ⟨1, _⟩ => show win0_5.index t 1 * 768 + 1 * j.val = j.val; rw [e51]; omega

/-- Point `t`'s block of window 7: the whole of argument 7 transposed. -/
theorem iblk7_apply (c : Dev nD) (t : Fin cfg0.N) (k j : Fin 768) :
    (iblk m c 7 t : Vec Ideal S768x768 .bf16) (ix2 k j) = ((m ((c : Thread nD τ).loc main_arg7)) : S768x768.Idx → EReal) (ix2 j k) := by
  obtain ⟨e00, e01, e10, e11, e20, e21, e30, e31, e40, e41, e50, e51, e60, e61, e70, e71, e80, e81, e90, e91⟩ := idx_facts t
  unfold iblk
  rw [View.read_apply]
  show V m c main_v7 _ = _
  rw [V_main_v7]
  refine (congrArg _ (?_ : _ = ix2 k j)).trans (transpose_ix2_apply _ _ k j)
  funext a
  apply Fin.ext
  match a with
  | ⟨0, _⟩ => show win0_7.index t 0 * 768 + 1 * k.val = k.val; rw [e70]; omega
  | ⟨1, _⟩ => show win0_7.index t 1 * 768 + 1 * j.val = j.val; rw [e71]; omega

/-- Point `t`'s block of window 2: argument 2 as one row. -/
theorem iblk2_apply (c : Dev nD) (t : Fin cfg0.N) (j : Fin 768) :
    (iblk m c 2 t : Vec Ideal S1x768 .f32) (ix2 (0 : Fin 1) j) = ((m ((c : Thread nD τ).loc main_arg2)) : S768.Idx → EReal) (ix1 j) := by
  obtain ⟨e00, e01, e10, e11, e20, e21, e30, e31, e40, e41, e50, e51, e60, e61, e70, e71, e80, e81, e90, e91⟩ := idx_facts t
  unfold iblk
  rw [View.read_apply]
  show V m c main_v8 _ = _
  rw [V_main_v8]
  refine (congrArg _ (?_ : _ = ix2 (0 : Fin 1) j)).trans (shapeCast_a_1a_apply _ _ 0 j)
  funext a
  apply Fin.ext
  match a with
  | ⟨0, _⟩ => show win0_2.index t 0 * 1 + 1 * 0 = 0; rw [e20]
  | ⟨1, _⟩ => show win0_2.index t 1 * 768 + 1 * j.val = j.val; rw [e21]; omega

/-- Point `t`'s block of window 4: argument 4 as one row. -/
theorem iblk4_apply (c : Dev nD) (t : Fin cfg0.N) (j : Fin 768) :
    (iblk m c 4 t : Vec Ideal S1x768 .f32) (ix2 (0 : Fin 1) j) = ((m ((c : Thread nD τ).loc main_arg4)) : S768.Idx → EReal) (ix1 j) := by
  obtain ⟨e00, e01, e10, e11, e20, e21, e30, e31, e40, e41, e50, e51, e60, e61, e70, e71, e80, e81, e90, e91⟩ := idx_facts t
  unfold iblk
  rw [View.read_apply]
  show V m c main_v9 _ = _
  rw [V_main_v9]
  refine (congrArg _ (?_ : _ = ix2 (0 : Fin 1) j)).trans (shapeCast_a_1a_apply _ _ 0 j)
  funext a
  apply Fin.ext
  match a with
  | ⟨0, _⟩ => show win0_4.index t 0 * 1 + 1 * 0 = 0; rw [e40]
  | ⟨1, _⟩ => show win0_4.index t 1 * 768 + 1 * j.val = j.val; rw [e41]; omega

/-- Point `t`'s block of window 6: argument 6 as one row. -/
theorem iblk6_apply (c : Dev nD) (t : Fin cfg0.N) (j : Fin 768) :
    (iblk m c 6 t : Vec Ideal S1x768 .f32) (ix2 (0 : Fin 1) j) = ((m ((c : Thread nD τ).loc main_arg6)) : S768.Idx → EReal) (ix1 j) := by
  obtain ⟨e00, e01, e10, e11, e20, e21, e30, e31, e40, e41, e50, e51, e60, e61, e70, e71, e80, e81, e90, e91⟩ := idx_facts t
  unfold iblk
  rw [View.read_apply]
  show V m c main_v10 _ = _
  rw [V_main_v10]
  refine (congrArg _ (?_ : _ = ix2 (0 : Fin 1) j)).trans (shapeCast_a_1a_apply _ _ 0 j)
  funext a
  apply Fin.ext
  match a with
  | ⟨0, _⟩ => show win0_6.index t 0 * 1 + 1 * 0 = 0; rw [e60]
  | ⟨1, _⟩ => show win0_6.index t 1 * 768 + 1 * j.val = j.val; rw [e61]; omega

/-- Point `t`'s block of window 8: argument 8 as one row. -/
theorem iblk8_apply (c : Dev nD) (t : Fin cfg0.N) (j : Fin 768) :
    (iblk m c 8 t : Vec Ideal S1x768 .f32) (ix2 (0 : Fin 1) j) = ((m ((c : Thread nD τ).loc main_arg8)) : S768.Idx → EReal) (ix1 j) := by
  obtain ⟨e00, e01, e10, e11, e20, e21, e30, e31, e40, e41, e50, e51, e60, e61, e70, e71, e80, e81, e90, e91⟩ := idx_facts t
  unfold iblk
  rw [View.read_apply]
  show V m c main_v11 _ = _
  rw [V_main_v11]
  refine (congrArg _ (?_ : _ = ix2 (0 : Fin 1) j)).trans (shapeCast_a_1a_apply _ _ 0 j)
  funext a
  apply Fin.ext
  match a with
  | ⟨0, _⟩ => show win0_8.index t 0 * 1 + 1 * 0 = 0; rw [e80]
  | ⟨1, _⟩ => show win0_8.index t 1 * 768 + 1 * j.val = j.val; rw [e81]; omega

/-! ## What a point writes back, the cover, the array -/

/-- The attention layer on the whole token array, from the argument arrays as launched. -/
abbrev result (c : Dev nD) : S65536x768.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry `y` of what the body leaves at point `t` is the layer at the array index under it. -/
theorem block_value (c : Dev nD) (t : Fin cfg0.N) (y : S256x768.Idx) (i : S65536x768.Idx)
    (hi0 : (i 0).val = t.val * 256 + (y 0).val) (hi1 : (i 1).val = (y 1).val) :
    out0_9 (iblk m c 0 t) (iblk m c 1 t) (iblk m c 2 t) (iblk m c 3 t) (iblk m c 4 t) (iblk m c 5 t) (iblk m c 6 t) (iblk m c 7 t) (iblk m c 8 t) y
      = result m c i := by
  refine (congrArg (out0_9 (iblk m c 0 t) (iblk m c 1 t) (iblk m c 2 t) (iblk m c 3 t) (iblk m c 4 t) (iblk m c 5 t) (iblk m c 6 t) (iblk m c 7 t) (iblk m c 8 t)) (eq_ix2 y)).trans
    ((Block.block_apply _ _ _ _ _ _ _ _ _ (y 0) (y 1)).trans ?_)
  exact attnRow_congr (fun k => iblk0_apply m c t (y 0) k (i 0) hi0)
    (fun k j => iblk1_apply m c t k j) (fun j => iblk2_apply m c t j)
    (fun k j => iblk3_apply m c t k j) (fun j => iblk4_apply m c t j)
    (fun k j => iblk5_apply m c t k j) (fun j => iblk6_apply m c t j)
    (fun k j => iblk7_apply m c t k j) (fun j => iblk8_apply m c t j) (Fin.ext hi1.symm)

/-- What point `t` writes back is block `t` of the layer on the whole array. -/
theorem flushed_eq (c : Dev nD) (t : Fin cfg0.N) :
    (dats m 0 c).flushed 9 t = ((cfg0.win 9).blk t).view.read (Elt Ideal) (result m c) := by
  obtain ⟨e00, e01, e10, e11, e20, e21, e30, e31, e40, e41, e50, e51, e60, e61, e70, e71, e80, e81, e90, e91⟩ := idx_facts t
  rw [flushed9]
  funext y
  show out0_9 (iblk m c 0 t) (iblk m c 1 t) (iblk m c 2 t) (iblk m c 3 t) (iblk m c 4 t) (iblk m c 5 t) (iblk m c 6 t) (iblk m c 7 t) (iblk m c 8 t) y
    = result m c (((cfg0.win 9).blk t).view.emb y)
  refine block_value m c t y _ ?_ ?_
  · show win0_9.index t 0 * 256 + 1 * (y 0).val = t.val * 256 + (y 0).val
    rw [e90]; omega
  · show win0_9.index t 1 * 768 + 1 * (y 1).val = (y 1).val
    rw [e91]; omega

/-- An index of the array is in point `t`'s block iff each coordinate is in the block's range on its axis. -/
theorem mem_blk (t : Fin cfg0.N) (i : S65536x768.Idx) :
    i ∈ ((cfg0.win 9).blk t).view.set ↔ ∀ a : Fin 2, win0_9.index t a * S256x768.size a ≤ (i a).val ∧ (i a).val < win0_9.index t a * S256x768.size a + S256x768.size a := by
  show i ∈ ((View.whole main_v12).slice (win0_9.rect t)).set ↔ _
  rw [View.set_slice_whole, Rect.mem_set_unit]
  exact Iff.rfl

/-- Every index of the result array is in the block of the point its row names. -/
theorem cover (c : Dev nD) (i : S65536x768.Idx) :
    ∃ t : Fin cfg0.N, (cfg0.win 9).flush t = true ∧ i ∈ ((cfg0.win 9).blk t).view.set := by
  have h0 : (i 0).val < 65536 := (i 0).isLt
  have h1 : (i 1).val < 768 := (i 1).isLt
  have hN := N256
  let t : Fin cfg0.N := ⟨(i 0).val / 256, by rw [hN]; omega⟩
  obtain ⟨e00, e01, e10, e11, e20, e21, e30, e31, e40, e41, e50, e51, e60, e61, e70, e71, e80, e81, e90, e91⟩ := idx_facts t
  refine ⟨t, flush0_9 t, ?_⟩
  rw [mem_blk]
  intro a
  match a with
  | ⟨0, _⟩ =>
    show win0_9.index t 0 * 256 ≤ (i 0).val ∧ (i 0).val < win0_9.index t 0 * 256 + 256
    rw [e90]
    show (i 0).val / 256 * 256 ≤ (i 0).val ∧ (i 0).val < (i 0).val / 256 * 256 + 256
    omega
  | ⟨1, _⟩ =>
    show win0_9.index t 1 * 768 ≤ (i 1).val ∧ (i 1).val < win0_9.index t 1 * 768 + 768
    rw [e91]; omega

/-- The result array after the run is the layer on the whole token array. -/
theorem final (c : Dev nD) : (dats m 0 c).arrAt 9 cfg0.N = result m c :=
  (dats m 0 c).arrAt_eq_of_cover 9 (result m c) (fun t _ => flushed_eq m c t) (cover c)

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Hand

end
-- ==== Proof.RefValue.lean ====
/-
  The reference program, read at an index, is the attention layer on each token.

  The reference forms the query, key and value rows of all tokens at once, views them as stacks, contracts head
  against head over the 64 lanes, divides the scores by 8, takes the softmax along the last axis with the row maximum
  subtracted (the maximum taken once more against minus infinity, which changes nothing), contracts the weights with
  the value heads, lays the heads side by side and applies the output layer. Dividing by 8 is multiplying by 1/8 on
  every extended real, both numbers being exact.
-/
import proofs.«110411_j86569360818684_2_alg».proof.Proof.Gen.ReferenceIdeal.Run
import proofs.«110411_j86569360818684_2_alg».proof.Proof.Gen.ReferenceIdeal.Read
import proofs.«110411_j86569360818684_2_alg».proof.Proof.AttnSpec
import proofs.«110411_j86569360818684_2_alg».proof.Proof.LibAxisFolds
import proofs.«110411_j86569360818684_2_alg».proof.Proof.LibStackLayouts
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-! ## The two constants -/

/-- The pattern `0x41000000` denotes 8. -/
theorem ofBits_eight : Ideal.ofBits .f32 0x41000000#32 = ((8 : ℝ) : EReal) := by
  simp [Ideal.ofBits, Ideal.ieee, -EReal.coe_mul]; norm_num

/-- The pattern `0x3E000000` denotes 1/8. -/
theorem ofBits_eighth : Ideal.ofBits .f32 0x3E000000#32 = ((1 / 8 : ℝ) : EReal) := by
  simp [Ideal.ofBits, Ideal.ieee, -EReal.coe_mul]; norm_num

/-- Dividing an extended real by 8 is multiplying it by 1/8. -/
theorem div_eight (a : EReal) : Ideal.div a (Ideal.ofBits .f32 0x41000000#32) = a * Ideal.ofBits .f32 0x3E000000#32 := by
  rw [ofBits_eight, ofBits_eighth, Ideal.div_coe (by norm_num : (8 : ℝ) ≠ 0)]

/-- A maximum that starts from `b` is not below `b`: taking it against `b` once more changes nothing. -/
theorem max_init_fold (b : EReal) (f : Fin 12 → EReal) :
    max b ((Finset.univ : Finset (Fin 12)).fold max b f) = (Finset.univ : Finset (Fin 12)).fold max b f :=
  max_eq_right ((Finset.le_fold_max b).2 (Or.inl le_rfl))

variable (x0 : (⟨S65536x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (x7 : (⟨S768x768, .f32⟩ : BufTy).Contents (Elt Ideal)) (x8 : (⟨S768, .f32⟩ : BufTy).Contents (Elt Ideal))

/-! ## The three projections as stacks -/

/-- A linear layer of the reference at `(n, j)`: the row of tokens against the transposed weight matrix, plus the bias. -/
theorem q_lin (n : Fin 65536) (j : Fin 768) :
    val_main_v4 (F := Ideal) x0 x1 x2 (ix2 n j)
      = linear (fun k => x0 (ix2 n k)) (fun k j => x1 (ix2 j k)) (fun j => x2 (ix1 j)) j := by
  rw [val_main_v4_apply, val_main_v1_apply, val_main_v3_apply, val_main_v2_apply, Ideal.addf_def]
  unfold linear
  refine congrArg₂ (· + ·) (Finset.sum_congr rfl fun k _ => ?_) (congrArg x2 ?_)
  · rw [val_main_v0_apply]
    exact congrArg₂ (· * ·) (congrArg x0 (funext fun a => match a with | ⟨0, _⟩ => rfl | ⟨1, _⟩ => rfl)) (congrArg x1 (funext fun a => match a with | ⟨0, _⟩ => rfl | ⟨1, _⟩ => rfl))
  · exact funext fun a => match a with | ⟨0, _⟩ => rfl

/-- A linear layer of the reference at `(n, j)`: the row of tokens against the transposed weight matrix, plus the bias. -/
theorem k_lin (n : Fin 65536) (j : Fin 768) :
    val_main_v9 (F := Ideal) x0 x3 x4 (ix2 n j)
      = linear (fun k => x0 (ix2 n k)) (fun k j => x3 (ix2 j k)) (fun j => x4 (ix1 j)) j := by
  rw [val_main_v9_apply, val_main_v6_apply, val_main_v8_apply, val_main_v7_apply, Ideal.addf_def]
  unfold linear
  refine congrArg₂ (· + ·) (Finset.sum_congr rfl fun k _ => ?_) (congrArg x4 ?_)
  · rw [val_main_v5_apply]
    exact congrArg₂ (· * ·) (congrArg x0 (funext fun a => match a with | ⟨0, _⟩ => rfl | ⟨1, _⟩ => rfl)) (congrArg x3 (funext fun a => match a with | ⟨0, _⟩ => rfl | ⟨1, _⟩ => rfl))
  · exact funext fun a => match a with | ⟨0, _⟩ => rfl

/-- A linear layer of the reference at `(n, j)`: the row of tokens against the transposed weight matrix, plus the bias. -/
theorem v_lin (n : Fin 65536) (j : Fin 768) :
    val_main_v14 (F := Ideal) x0 x5 x6 (ix2 n j)
      = linear (fun k => x0 (ix2 n k)) (fun k j => x5 (ix2 j k)) (fun j => x6 (ix1 j)) j := by
  rw [val_main_v14_apply, val_main_v11_apply, val_main_v13_apply, val_main_v12_apply, Ideal.addf_def]
  unfold linear
  refine congrArg₂ (· + ·) (Finset.sum_congr rfl fun k _ => ?_) (congrArg x6 ?_)
  · rw [val_main_v10_apply]
    exact congrArg₂ (· * ·) (congrArg x0 (funext fun a => match a with | ⟨0, _⟩ => rfl | ⟨1, _⟩ => rfl)) (congrArg x5 (funext fun a => match a with | ⟨0, _⟩ => rfl | ⟨1, _⟩ => rfl))
  · exact funext fun a => match a with | ⟨0, _⟩ => rfl

/-- The query stack at `(n, h, d)`: column `h·64 + d` of token `n`'s query row. -/
theorem q_apply (n : Fin 65536) (h : Fin 12) (d : Fin 64) :
    val_main_v15 (F := Ideal) x0 x1 x2 (ix3 n h d)
      = linear (fun k => x0 (ix2 n k)) (fun k j => x1 (ix2 j k)) (fun j => x2 (ix1 j)) (hd h d) := by
  rw [val_main_v15_apply]
  refine (congrArg (val_main_v4 (F := Ideal) x0 x1 x2) (?_ : idx_main_v15 (ix3 n h d) = ix2 n (hd h d))).trans (q_lin x0 x1 x2 n (hd h d))
  have hn := n.isLt; have hh := h.isLt; have hd' := d.isLt
  funext a; apply Fin.ext
  match a with
  | ⟨0, _⟩ => show ((n.val * 12 + h.val) * 64 + d.val) / 768 = n.val; omega
  | ⟨1, _⟩ => show ((n.val * 12 + h.val) * 64 + d.val) % 768 = h.val * 64 + d.val; omega

/-- The key stack at `(n, d, g)`: column `d·12 + g` of token `n`'s key row. -/
theorem k_apply (n : Fin 65536) (d : Fin 64) (g : Fin 12) :
    val_main_v16 (F := Ideal) x0 x3 x4 (ix3 n d g)
      = linear (fun k => x0 (ix2 n k)) (fun k j => x3 (ix2 j k)) (fun j => x4 (ix1 j)) (dg d g) := by
  rw [val_main_v16_apply]
  refine (congrArg (val_main_v9 (F := Ideal) x0 x3 x4) (?_ : idx_main_v16 (ix3 n d g) = ix2 n (dg d g))).trans (k_lin x0 x3 x4 n (dg d g))
  have hn := n.isLt; have hg := g.isLt; have hd' := d.isLt
  funext a; apply Fin.ext
  match a with
  | ⟨0, _⟩ => show ((n.val * 64 + d.val) * 12 + g.val) / 768 = n.val; omega
  | ⟨1, _⟩ => show ((n.val * 64 + d.val) * 12 + g.val) % 768 = d.val * 12 + g.val; omega

/-- The value stack at `(n, g, d)`: column `g·64 + d` of token `n`'s value row. -/
theorem v_apply (n : Fin 65536) (g : Fin 12) (d : Fin 64) :
    val_main_v17 (F := Ideal) x0 x5 x6 (ix3 n g d)
      = linear (fun k => x0 (ix2 n k)) (fun k j => x5 (ix2 j k)) (fun j => x6 (ix1 j)) (hd g d) := by
  rw [val_main_v17_apply]
  refine (congrArg (val_main_v14 (F := Ideal) x0 x5 x6) (?_ : idx_main_v17 (ix3 n g d) = ix2 n (hd g d))).trans (v_lin x0 x5 x6 n (hd g d))
  have hn := n.isLt; have hg := g.isLt; have hd' := d.isLt
  funext a; apply Fin.ext
  match a with
  | ⟨0, _⟩ => show ((n.val * 12 + g.val) * 64 + d.val) / 768 = n.val; omega
  | ⟨1, _⟩ => show ((n.val * 12 + g.val) * 64 + d.val) % 768 = g.val * 64 + d.val; omega

/-! ## Scores, softmax, context -/

/-- The contraction of the query stack with the key stack at `(n, h, g)`: the raw score of head `h` against head `g`. -/
theorem raw_apply (n : Fin 65536) (h g : Fin 12) :
    val_main_v18 (F := Ideal) x0 x1 x2 x3 x4 (ix3 n h g) = rawScore (linear (fun k => x0 (ix2 n k)) (fun k j => x1 (ix2 j k)) (fun j => x2 (ix1 j))) (linear (fun k => x0 (ix2 n k)) (fun k j => x3 (ix2 j k)) (fun j => x4 (ix1 j))) h g := by
  rw [val_main_v18_apply]
  unfold rawScore
  refine Finset.sum_congr rfl fun d _ => ?_
  rw [show lidx_main_v18 (ix3 n h g) d = ix3 n h d from funext fun a => match a with | ⟨0, _⟩ => rfl | ⟨1, _⟩ => rfl | ⟨2, _⟩ => rfl,
    show ridx_main_v18 (ix3 n h g) d = ix3 n d g from funext fun a => match a with | ⟨0, _⟩ => rfl | ⟨1, _⟩ => rfl | ⟨2, _⟩ => rfl, q_apply, k_apply]

/-- The scores at `(n, h, g)`. -/
theorem score_apply (n : Fin 65536) (h g : Fin 12) :
    val_main_v20 (F := Ideal) x0 x1 x2 x3 x4 (ix3 n h g) = score (linear (fun k => x0 (ix2 n k)) (fun k j => x1 (ix2 j k)) (fun j => x2 (ix1 j))) (linear (fun k => x0 (ix2 n k)) (fun k j => x3 (ix2 j k)) (fun j => x4 (ix1 j))) h g := by
  rw [val_main_v20_apply, raw_apply, val_main_v19_apply, val_main_cst_apply]
  exact div_eight _

/-- The row maxima at `(n, h)`. -/
theorem max_apply (n : Fin 65536) (h : Fin 12) :
    val_main_v23 (F := Ideal) x0 x1 x2 x3 x4 (ix2 n h) = rowMax (score (linear (fun k => x0 (ix2 n k)) (fun k j => x1 (ix2 j k)) (fun j => x2 (ix1 j))) (linear (fun k => x0 (ix2 n k)) (fun k j => x3 (ix2 j k)) (fun j => x4 (ix1 j))) h) := by
  rw [val_main_v23_apply, val_main_v22_apply, val_main_cst_1_apply]
  unfold val_main_v21
  rw [Cert.Lib.hostMax_last_apply _ _ _ (by decide) _ n h]
  have hf : (fun g : Fin 12 => val_main_v20 (F := Ideal) x0 x1 x2 x3 x4 (ix3 n h g)) = score (linear (fun k => x0 (ix2 n k)) (fun k j => x1 (ix2 j k)) (fun j => x2 (ix1 j))) (linear (fun k => x0 (ix2 n k)) (fun k j => x3 (ix2 j k)) (fun j => x4 (ix1 j))) h :=
    funext fun g => score_apply x0 x1 x2 x3 x4 n h g
  rw [hf]
  exact max_init_fold _ _

/-- The exponentials at `(n, h, g)`. -/
theorem exp_apply (n : Fin 65536) (h g : Fin 12) :
    val_main_v27 (F := Ideal) x0 x1 x2 x3 x4 (ix3 n h g)
      = Ideal.exp (score (linear (fun k => x0 (ix2 n k)) (fun k j => x1 (ix2 j k)) (fun j => x2 (ix1 j))) (linear (fun k => x0 (ix2 n k)) (fun k j => x3 (ix2 j k)) (fun j => x4 (ix1 j))) h g - rowMax (score (linear (fun k => x0 (ix2 n k)) (fun k j => x1 (ix2 j k)) (fun j => x2 (ix1 j))) (linear (fun k => x0 (ix2 n k)) (fun k j => x3 (ix2 j k)) (fun j => x4 (ix1 j))) h)) := by
  rw [val_main_v27_apply, val_main_v26_apply, score_apply, val_main_v25_apply, val_main_v24_apply,
    show idx_main_v24 (idx_main_v25 (ix3 n h g)) = ix2 n h from funext fun a => match a with | ⟨0, _⟩ => rfl | ⟨1, _⟩ => rfl, max_apply]
  rfl

/-- Their sums at `(n, h)`. -/
theorem sum_apply (n : Fin 65536) (h : Fin 12) :
    val_main_v28 (F := Ideal) x0 x1 x2 x3 x4 (ix2 n h)
      = ∑ g : Fin 12, Ideal.exp (score (linear (fun k => x0 (ix2 n k)) (fun k j => x1 (ix2 j k)) (fun j => x2 (ix1 j))) (linear (fun k => x0 (ix2 n k)) (fun k j => x3 (ix2 j k)) (fun j => x4 (ix1 j))) h g - rowMax (score (linear (fun k => x0 (ix2 n k)) (fun k j => x1 (ix2 j k)) (fun j => x2 (ix1 j))) (linear (fun k => x0 (ix2 n k)) (fun k j => x3 (ix2 j k)) (fun j => x4 (ix1 j))) h)) := by
  rw [val_main_v28_apply]
  refine (congrArg₂ (· + ·) (Ideal.ofBits_zero_f32 : _ = (0 : EReal)) (Finset.sum_congr rfl fun g _ => ?_)).trans (zero_add _)
  rw [show idx_main_v28 (ix2 n h) g = ix3 n h g from funext fun a => match a with | ⟨0, _⟩ => rfl | ⟨1, _⟩ => rfl | ⟨2, _⟩ => rfl, exp_apply]

/-- The attention weights at `(n, h, g)`. -/
theorem weights_apply (n : Fin 65536) (h g : Fin 12) :
    val_main_v31 (F := Ideal) x0 x1 x2 x3 x4 (ix3 n h g) = softmax (score (linear (fun k => x0 (ix2 n k)) (fun k j => x1 (ix2 j k)) (fun j => x2 (ix1 j))) (linear (fun k => x0 (ix2 n k)) (fun k j => x3 (ix2 j k)) (fun j => x4 (ix1 j))) h) g := by
  rw [val_main_v31_apply, exp_apply, val_main_v30_apply, val_main_v29_apply,
    show idx_main_v29 (idx_main_v30 (ix3 n h g)) = ix2 n h from funext fun a => match a with | ⟨0, _⟩ => rfl | ⟨1, _⟩ => rfl, sum_apply]
  rfl

/-- The context stack at `(n, h, d)`. -/
theorem mix_apply (n : Fin 65536) (h : Fin 12) (d : Fin 64) :
    val_main_v32 (F := Ideal) x0 x1 x2 x3 x4 x5 x6 (ix3 n h d)
      = mix (fun h => softmax (score (linear (fun k => x0 (ix2 n k)) (fun k j => x1 (ix2 j k)) (fun j => x2 (ix1 j))) (linear (fun k => x0 (ix2 n k)) (fun k j => x3 (ix2 j k)) (fun j => x4 (ix1 j))) h)) (linear (fun k => x0 (ix2 n k)) (fun k j => x5 (ix2 j k)) (fun j => x6 (ix1 j))) h d := by
  rw [val_main_v32_apply]
  unfold mix
  refine Finset.sum_congr rfl fun g _ => ?_
  rw [show lidx_main_v32 (ix3 n h d) g = ix3 n h g from funext fun a => match a with | ⟨0, _⟩ => rfl | ⟨1, _⟩ => rfl | ⟨2, _⟩ => rfl,
    show ridx_main_v32 (ix3 n h d) g = ix3 n g d from funext fun a => match a with | ⟨0, _⟩ => rfl | ⟨1, _⟩ => rfl | ⟨2, _⟩ => rfl, weights_apply, v_apply]

/-- The context rows at `(n, c)`: head `c / 64`, lane `c % 64`. -/
theorem context_apply (n : Fin 65536) (c : Fin 768) :
    val_main_v33 (F := Ideal) x0 x1 x2 x3 x4 x5 x6 (ix2 n c)
      = context (fun k => x0 (ix2 n k)) (fun k j => x1 (ix2 j k)) (fun j => x2 (ix1 j))
          (fun k j => x3 (ix2 j k)) (fun j => x4 (ix1 j)) (fun k j => x5 (ix2 j k)) (fun j => x6 (ix1 j)) c := by
  rw [val_main_v33_apply]
  refine (congrArg (val_main_v32 (F := Ideal) x0 x1 x2 x3 x4 x5 x6) (?_ : idx_main_v33 (ix2 n c) = ix3 n (headOf c) (laneOf c))).trans
    (mix_apply x0 x1 x2 x3 x4 x5 x6 n (headOf c) (laneOf c))
  have hn := n.isLt; have hc := c.isLt
  funext a; apply Fin.ext
  match a with
  | ⟨0, _⟩ => show (n.val * 768 + c.val) / 768 = n.val; omega
  | ⟨1, _⟩ => show (n.val * 768 + c.val) / 64 % 12 = c.val / 64; omega
  | ⟨2, _⟩ => show (n.val * 768 + c.val) % 64 = c.val % 64; omega

/-! ## The result -/

/-- The reference's result at `(n, j)` is the attention layer on token `n`, at `j`. -/
theorem out_apply (n : Fin 65536) (j : Fin 768) :
    val_main_v38 (F := Ideal) x0 x1 x2 x3 x4 x5 x6 x7 x8 (ix2 n j)
      = attnRow (fun k => x0 (ix2 n k)) (fun k j => x1 (ix2 j k)) (fun j => x2 (ix1 j))
          (fun k j => x3 (ix2 j k)) (fun j => x4 (ix1 j)) (fun k j => x5 (ix2 j k)) (fun j => x6 (ix1 j))
          (fun k j => x7 (ix2 j k)) (fun j => x8 (ix1 j)) j := by
  rw [val_main_v38_apply, val_main_v35_apply, val_main_v37_apply, val_main_v36_apply, Ideal.addf_def]
  unfold attnRow linear
  refine congrArg₂ (· + ·) (Finset.sum_congr rfl fun c _ => ?_) (congrArg x8 ?_)
  · rw [val_main_v34_apply, show lidx_main_v35 (ix2 n j) c = ix2 n c from funext fun a => match a with | ⟨0, _⟩ => rfl | ⟨1, _⟩ => rfl, context_apply]
    exact congrArg (_ * ·) (congrArg x7 (funext fun a => match a with | ⟨0, _⟩ => rfl | ⟨1, _⟩ => rfl))
  · exact funext fun a => match a with | ⟨0, _⟩ => rfl

/-- The reference's result array is the layer on the whole token array. -/
theorem ref_eq : val_main_v38 (F := Ideal) x0 x1 x2 x3 x4 x5 x6 x7 x8 = G x0 x1 x2 x3 x4 x5 x6 x7 x8 := by
  funext i
  obtain ⟨n, j, rfl⟩ : ∃ (n : Fin 65536) (j : Fin 768), i = ix2 n j := ⟨i 0, i 1, eq_ix2 i⟩
  exact out_apply x0 x1 x2 x3 x4 x5 x6 x7 x8 n j

end Cert.ReferenceIdeal.RefValue

end
-- ==== Proof.lean ====
/-
  Per-token multi-head attention: a fused kernel against its plain reference, equal over the extended reals.

  Both programs compute, for every token (a row `x` of 768 numbers), the layer of Proof/AttnSpec.lean: the query, key
  and value rows `x·Wqᵀ + bq`, `x·Wkᵀ + bk`, `x·Wvᵀ + bv`; the twelve-by-twelve scores of head against head (the
  query row cut into 12 heads of 64 lanes, the key row read as a 64 × 12 matrix), scaled by 1/8; a softmax of each
  row of scores taken with the row's maximum subtracted; the weights applied to the twelve heads of the value row;
  and the output layer on the twelve context heads laid side by side.

  The kernel works on blocks of 256 tokens, with the weights transposed beforehand by the host, scores one query
  head at a time by a product summed over the lanes, multiplies the scores by 1/8, and mixes the value heads one
  weight row at a time. The reference works on all tokens at once with two batched contractions and divides the
  scores by 8. On the extended reals a change of number format is the identity, a product accumulated from zero and a
  contraction are the same finite sum, dividing by 8 is multiplying by 1/8, and a maximum taken once more against its
  own starting value is unchanged; nothing else distinguishes the two, so the equality holds for every input and the
  finiteness of the inputs is not used.

  Proof/KernelPieces.lean reads the kernel body's values at an index, Proof/KernelBlock.lean puts them together for
  one block, Proof/KernelValue.lean passes from the blocks to the whole result array, Proof/RefValue.lean reads the
  reference at an index; the frames and the runs of both programs are the generated ones.
-/
import proofs.«110411_j86569360818684_2_alg».proof.Defs
import proofs.«110411_j86569360818684_2_alg».proof.Proof.Gen.Kernel
import proofs.«110411_j86569360818684_2_alg».proof.Proof.Gen.Kernel.Skeleton
import proofs.«110411_j86569360818684_2_alg».proof.Proof.Gen.Kernel.Launch
import proofs.«110411_j86569360818684_2_alg».proof.Proof.Gen.Kernel.Points
import proofs.«110411_j86569360818684_2_alg».proof.Proof.Gen.Kernel.Frame
import proofs.«110411_j86569360818684_2_alg».proof.Proof.Gen.KernelIdeal
import proofs.«110411_j86569360818684_2_alg».proof.Proof.Gen.KernelIdeal.Skeleton
import proofs.«110411_j86569360818684_2_alg».proof.Proof.Gen.KernelIdeal.Launch
import proofs.«110411_j86569360818684_2_alg».proof.Proof.Gen.KernelIdeal.Points
import proofs.«110411_j86569360818684_2_alg».proof.Proof.Gen.KernelIdeal.Frame
import proofs.«110411_j86569360818684_2_alg».proof.Proof.Gen.ReferenceIdeal
import proofs.«110411_j86569360818684_2_alg».proof.Proof.Gen.Pre_finite_inputs
import proofs.«110411_j86569360818684_2_alg».proof.Proof.Gen.KernelIdeal.Value
import proofs.«110411_j86569360818684_2_alg».proof.Proof.Gen.ReferenceIdeal.Run
import proofs.«110411_j86569360818684_2_alg».proof.Proof.Gen.ReferenceIdeal.Read
import proofs.«110411_j86569360818684_2_alg».proof.Proof.AttnSpec
import proofs.«110411_j86569360818684_2_alg».proof.Proof.KernelValue
import proofs.«110411_j86569360818684_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the attention layer on every token in their
    result arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.ref_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
